-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S256x256 .f32) (main_arg8 : FVec F S256 .f32) (main_arg9 : FVec F S256x1 .f32) (main_arg10 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S2x200000 32) (main_arg3 : FVec F S128x128 .f32) (main_arg4 : FVec F S128 .f32) (main_arg5 : FVec F S128x64 .f32) (main_arg6 : FVec F S64 .f32) (main_arg7 : FVec F S256x256 .f32) (main_arg8 : FVec F S256 .f32) (main_arg9 : FVec F S256x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S5000x128 : Shape := ⟨2, ![5000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S1x256 : Shape := ⟨2, ![1, 256]⟩
abbrev S1x1 : Shape := ⟨2, ![1, 1]⟩
abbrev S4000x64 : Shape := ⟨2, ![4000, 64]⟩
abbrev S4000x1 : Shape := ⟨2, ![4000, 1]⟩
abbrev S64x256 : Shape := ⟨2, ![64, 256]⟩
abbrev S4000x256 : Shape := ⟨2, ![4000, 256]⟩

abbrev nBuf : Space → Nat
  | .hbm => 153
  | .vmem => 20
  | .smem => 0
  | _ => 0

abbrev hbmTy0_0 (i : Nat) : BufTy := match i % 128 with
  | 0 => ⟨S100000x128, .f32⟩
  | 1 => ⟨S2x1600000, .i32⟩
  | 2 => ⟨S2x200000, .i32⟩
  | 3 => ⟨S128x128, .f32⟩
  | 4 => ⟨S128, .f32⟩
  | 5 => ⟨S128x64, .f32⟩
  | 6 => ⟨S64, .f32⟩
  | 7 => ⟨S256x256, .f32⟩
  | 8 => ⟨S256, .f32⟩
  | 9 => ⟨S256x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S100000x128, .f32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S1700000x1, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S1x200000, .i32⟩
  | _ => ⟨S100000x128, .f32⟩

abbrev hbmTy0_1 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x64, .f32⟩
  | 10 => ⟨S1x200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x64, .f32⟩
  | 21 => ⟨S1x256, .f32⟩
  | 22 => ⟨S1x1, .f32⟩
  | 23 => ⟨S200000x1, .f32⟩
  | 24 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S256x256, .f32⟩
  | .local _ .vmem, ⟨15, _⟩ => ⟨S1x256, .f32⟩
  | .local _ .vmem, ⟨16, _⟩ => ⟨S256x1, .f32⟩
  | .local _ .vmem, ⟨17, _⟩ => ⟨S1x1, .f32⟩
  | .local _ .vmem, ⟨18, _⟩ => ⟨S4000x1, .f32⟩
  | .local _ .vmem, ⟨19, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_17 : Ref sig .tc := ⟨.hbm, 109, rfl⟩
abbrev main_v73 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_20 : Ref sig .tc := ⟨.hbm, 129, rfl⟩
abbrev main_v90 : Ref sig .tc := ⟨.hbm, 130, rfl⟩
abbrev main_v91 : Ref sig .tc := ⟨.hbm, 131, rfl⟩
abbrev main_c_21 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_22 : Ref sig .tc := ⟨.hbm, 140, rfl⟩
abbrev main_v99 : Ref sig .tc := ⟨.hbm, 141, rfl⟩
abbrev main_v100 : Ref sig .tc := ⟨.hbm, 142, rfl⟩
abbrev main_c_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  shapeCasts_S256_S1x256 : S256.ShapeCasts S1x256
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S256x256_S64x256_0_0 : ∀ a, (![0, 0] : Fin 2 → Nat) a + S64x256.size a ≤ S256x256.size a
  h_S64x256 : 0 < S64x256.numel
  inb_S256x256_S64x256_64_0 : ∀ a, (![64, 0] : Fin 2 → Nat) a + S64x256.size a ≤ S256x256.size a
  inb_S256x256_S64x256_128_0 : ∀ a, (![128, 0] : Fin 2 → Nat) a + S64x256.size a ≤ S256x256.size a
  inb_S256x256_S64x256_192_0 : ∀ a, (![192, 0] : Fin 2 → Nat) a + S64x256.size a ≤ S256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S200000x1_S200000 : S200000x1.ShapeCasts S200000
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S200000x1_S200000x64_1_0_n_n_0_1_164_wf : GatherDims.WF S100000x64 S200000x1 S200000x64 [1] [0] [] [0] [] 1 ![1, 64]
  dot_S4000x64_S64x256_S4000x256_1_0_0_1_n_n_wf : DotDims.WF S4000x64 S64x256 S4000x256 [1] [0] [0] [1] [] []
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x1.size a ≤ S200000x1.size a
  hwx2_6 : ∀ i : grid2.Coords, EltTy.bits .f32 = 32 ∨ (Rect.block (s := S200000x1) S4000x1.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v96) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v105) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v106) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v107) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v108) S4000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x200000 : Shape := ⟨2, ![2, 200000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x256 : Shape := ⟨2, ![256, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x256 : Shape := ⟨2, ![200000, 256]⟩
abbrev S1x256 : Shape := ⟨2, ![1, 256]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x1600000, .i32⟩
  | 2 => ⟨S2x200000, .i32⟩
  | 3 => ⟨S128x128, .f32⟩
  | 4 => ⟨S128, .f32⟩
  | 5 => ⟨S128x64, .f32⟩
  | 6 => ⟨S64, .f32⟩
  | 7 => ⟨S256x256, .f32⟩
  | 8 => ⟨S256, .f32⟩
  | 9 => ⟨S256x1, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S100000x128, .f32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S1700000x1, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S1x200000, .i32⟩
  | _ => ⟨S100000x128, .f32⟩

abbrev hbmTy0_1 (i : Nat) : BufTy := match i % 128 with
  | 0 => ⟨S200000, .i32⟩
  | 1 => ⟨S_, .i32⟩
  | 2 => ⟨S200000, .i32⟩
  | 3 => ⟨S200000, .i1⟩
  | 4 => ⟨S_, .i32⟩
  | 5 => ⟨S200000, .i32⟩
  | 6 => ⟨S200000, .i32⟩
  | 7 => ⟨S200000, .i32⟩
  | 8 => ⟨S200000x1, .i32⟩
  | 9 => ⟨S200000x64, .f32⟩
  | 10 => ⟨S1x200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x64, .f32⟩
  | 21 => ⟨S200000x64, .f32⟩
  | 22 => ⟨S200000x64, .f32⟩
  | 23 => ⟨S200000x64, .f32⟩
  | 24 => ⟨S200000x256, .f32⟩
  | 25 => ⟨S200000x256, .f32⟩
  | 26 => ⟨S1x256, .f32⟩
  | 27 => ⟨S200000x256, .f32⟩
  | 28 => ⟨S200000x256, .f32⟩
  | 29 => ⟨S_, .f32⟩
  | 30 => ⟨S200000x256, .f32⟩
  | 31 => ⟨S200000x256, .f32⟩
  | 32 => ⟨S200000x1, .f32⟩
  | 33 => ⟨S1x1, .f32⟩
  | 34 => ⟨S200000x1, .f32⟩
  | 35 => ⟨S200000x1, .f32⟩
  | 36 => ⟨S200000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_17 : Ref sig .tc := ⟨.hbm, 109, rfl⟩
abbrev main_v73 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_20 : Ref sig .tc := ⟨.hbm, 129, rfl⟩
abbrev main_v90 : Ref sig .tc := ⟨.hbm, 130, rfl⟩
abbrev main_v91 : Ref sig .tc := ⟨.hbm, 131, rfl⟩
abbrev main_c_21 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_22 : Ref sig .tc := ⟨.hbm, 140, rfl⟩
abbrev main_v99 : Ref sig .tc := ⟨.hbm, 141, rfl⟩
abbrev main_v100 : Ref sig .tc := ⟨.hbm, 142, rfl⟩
abbrev main_c_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_call3_cst : Ref sig .tc := ⟨.hbm, 157, rfl⟩
abbrev main_call3_v0 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x64_S200000x64_S200000x256_d1 : Shape.Concatenates [S200000x64, S200000x64, S200000x64, S200000x64] S200000x256 1
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S200000x1_S200000x64_1_0_n_n_0_1_164_wf : GatherDims.WF S100000x64 S200000x1 S200000x64 [1] [0] [] [0] [] 1 ![1, 64]
  dot_S200000x256_S256x256_S200000x256_1_0_0_1_n_n_wf : DotDims.WF S200000x256 S256x256 S200000x256 [1] [0] [0] [1] [] []
  dot_S200000x256_S256x1_S200000x1_1_0_0_1_n_n_wf : DotDims.WF S200000x256 S256x1 S200000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.RefHost.lean ====
/-
  The reference program's whole fold, read as its own last stage.

  The reference is 154 host operations in a row. From ANY contents `V` of its buffers, what they leave in the
  result's buffer is the last stage `val_main_v119` of the eleven arguments found in `V`, and the arguments are as
  they were (`result`, `keep_arg0 … keep_arg10`).

  The operations are cut into fifteen lists in their order: the edge lists; the first projection; the degrees; the node
  coefficient; the first layer's aggregation and bias; its maximum with zero; the second projection; the degrees and
  the coefficient again; the second layer's aggregation and the gathers at the pairs' nodes; the decoder's features,
  its first layer, its maximum with zero, its output layer; the logits as a vector (`ops_cut`). Lists in a row run one
  from what the other leaves (`after_append`). Each list is read on its own from arbitrary contents `U`: what it
  writes is the reference's stage of the stages it finds. The three outlined functions' operations move contents along
  "the reference's type is the tensor's type", the identity at these literal references: their lists are stated over the
  references themselves, and the cut checks that this is the same list. Then the lists are nested (`upTo1 … upTo15`).
-/
import proofs.«124321_j44160853737915_1_alg».proof.Proof.RefRead
import Idealize.ShloMosaic.Lib.StableHlo.Run

set_option maxRecDepth 16384

noncomputable section

namespace Cert.Bridge.RefHost

open Cert.ReferenceIdeal Cert.ReferenceIdeal.Gen Idealize.ShloMosaic Idealize.ShloMosaic.TcCoe Idealize.SL.Sem Idealize.ShloMosaic.StableHlo
open Cert.ReferenceIdeal.ReadP

/-! ## The reference's operations, cut into fifteen lists -/

section Cut
variable {F : FTy → Type} [FloatOps F]

/-- The edge lists: source and destination node of every edge, self loops appended. -/
abbrev edgesOps : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The first layer's projection `x0 · W₀`. -/
abbrev proj1Ops : List (HloOp τ sig (Elt F)) :=
  [ binary main_arg0 main_arg3 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The degrees, where they are positive, their inverse square roots, and the zero. -/
abbrev degree1Ops : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- The node coefficient (the outlined `where`, stated at the references themselves). -/
abbrev coeff1Ops : List (HloOp τ sig (Elt F)) :=
  [ unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v13 main_v14 main_call0_v1 main_v15 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The first layer's aggregation and bias. -/
abbrev sum1Ops : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    unary main_v30 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v7 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The first layer's maximum with zero (the outlined function, stated at the references themselves). -/
abbrev relu1Ops : List (HloOp τ sig (Elt F)) :=
  [ nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v46 main_call1_v0 main_v47 (maximumf : (⟨S100000x128, .f32⟩ : BufTy).Contents (Elt F) → (⟨S100000x128, .f32⟩ : BufTy).Contents (Elt F) → (⟨S100000x128, .f32⟩ : BufTy).Contents (Elt F)) ]

/-- The second layer's projection `h · W₁`. -/
abbrev proj2Ops : List (HloOp τ sig (Elt F)) :=
  [ binary main_v47 main_arg5 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The degrees again. -/
abbrev degree2Ops : List (HloOp τ sig (Elt F)) :=
  [ nullary main_cst_9 (constant S_ .f32 0x3F800000#32),
    unary main_cst_9 main_v49 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S1700000x1 ![0] bcast_S1700000_S1700000x1_0 : (⟨S1700000, .i32⟩ : BufTy).Contents (Elt F) → (⟨S1700000x1, .i32⟩ : BufTy).Contents (Elt F)),
    ternary main_v50 main_v51 main_v49 main_v52 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32) ]

/-- The node coefficient again. -/
abbrev coeff2Ops : List (HloOp τ sig (Elt F)) :=
  [ unary main_cst_12 main_call2_v0 (id : (⟨S_, .f32⟩ : BufTy).Contents (Elt F) → (⟨S_, .f32⟩ : BufTy).Contents (Elt F)),
    unary main_call2_v0 main_call2_v1 (broadcastInDim S100000 ![] bcast_S_S100000 : (⟨S_, .f32⟩ : BufTy).Contents (Elt F) → (⟨S100000, .f32⟩ : BufTy).Contents (Elt F)),
    ternary main_v54 main_v55 main_call2_v1 main_v56 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

/-- The second layer's aggregation and bias, and the embeddings gathered at the pairs' nodes. -/
abbrev pairsOps : List (HloOp τ sig (Elt F)) :=
  [ nullary main_c_13 (constantI S_ 32 0#32),
    unary main_c_13 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v64 (broadcastInDim S1700000 ![] bcast_S_S1700000 : (⟨S_, .i32⟩ : BufTy).Contents (Elt F) → (⟨S1700000, .i32⟩ : BufTy).Contents (Elt F)),
    binary main_v6 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v66 (broadcastInDim S1700000 ![] bcast_S_S1700000 : (⟨S_, .i32⟩ : BufTy).Contents (Elt F) → (⟨S1700000, .i32⟩ : BufTy).Contents (Elt F)),
    binary main_v6 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v6 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v56 main_v69 main_v70 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v63 main_v70 main_v71 (mulf : (⟨S1700000, .f32⟩ : BufTy).Contents (Elt F) → (⟨S1700000, .f32⟩ : BufTy).Contents (Elt F) → (⟨S1700000, .f32⟩ : BufTy).Contents (Elt F)),
    unary main_v71 main_v72 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v73 (broadcastInDim S1700000 ![] bcast_S_S1700000 : (⟨S_, .i32⟩ : BufTy).Contents (Elt F) → (⟨S1700000, .i32⟩ : BufTy).Contents (Elt F)),
    binary main_v3 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v75 (broadcastInDim S1700000 ![] bcast_S_S1700000 : (⟨S_, .i32⟩ : BufTy).Contents (Elt F) → (⟨S1700000, .i32⟩ : BufTy).Contents (Elt F)),
    binary main_v3 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v3 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    binary main_v48 main_v78 main_v79 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v72 main_v80 (broadcastInDim S1700000x64 ![0, 1] bcast_S1700000x1_S1700000x64_0_1 : (⟨S1700000x1, .f32⟩ : BufTy).Contents (Elt F) → (⟨S1700000x64, .f32⟩ : BufTy).Contents (Elt F)),
    binary main_v79 main_v80 main_v81 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v82 (broadcastInDim S100000x64 ![] bcast_S_S100000x64 : (⟨S_, .f32⟩ : BufTy).Contents (Elt F) → (⟨S100000x64, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v85 (broadcastInDim S1x64 ![1] bcast_S64_S1x64_1 : (⟨S64, .f32⟩ : BufTy).Contents (Elt F) → (⟨S1x64, .f32⟩ : BufTy).Contents (Elt F)),
    unary main_v85 main_v86 (broadcastInDim S100000x64 ![0, 1] bcast_S1x64_S100000x64_0_1 : (⟨S1x64, .f32⟩ : BufTy).Contents (Elt F) → (⟨S100000x64, .f32⟩ : BufTy).Contents (Elt F)),
    binary main_v84 main_v86 main_v87 (addf : (⟨S100000x64, .f32⟩ : BufTy).Contents (Elt F) → (⟨S100000x64, .f32⟩ : BufTy).Contents (Elt F) → (⟨S100000x64, .f32⟩ : BufTy).Contents (Elt F)),
    unary main_arg2 main_v88 ((extractStridedSlice S1x200000 ![0, 0] · slices_S2x200000_S1x200000_0_0) : (⟨S2x200000, .i32⟩ : BufTy).Contents (Elt F) → (⟨S1x200000, .i32⟩ : BufTy).Contents (Elt F)),
    reshape main_v88 main_v89 rfl shapeCasts_S1x200000_S200000,
    nullary main_c_20 (constantI S_ 32 0#32),
    unary main_c_20 main_v90 (broadcastInDim S200000 ![] bcast_S_S200000 : (⟨S_, .i32⟩ : BufTy).Contents (Elt F) → (⟨S200000, .i32⟩ : BufTy).Contents (Elt F)),
    binary main_v89 main_v90 main_v91 (cmpi .slt : (⟨S200000, .i32⟩ : BufTy).Contents (Elt F) → (⟨S200000, .i32⟩ : BufTy).Contents (Elt F) → (⟨S200000, .i1⟩ : BufTy).Contents (Elt F)),
    nullary main_c_21 (constantI S_ 32 100000#32),
    unary main_c_21 main_v92 (broadcastInDim S200000 ![] bcast_S_S200000 : (⟨S_, .i32⟩ : BufTy).Contents (Elt F) → (⟨S200000, .i32⟩ : BufTy).Contents (Elt F)),
    binary main_v89 main_v92 main_v93 (addi : (⟨S200000, .i32⟩ : BufTy).Contents (Elt F) → (⟨S200000, .i32⟩ : BufTy).Contents (Elt F) → (⟨S200000, .i32⟩ : BufTy).Contents (Elt F)),
    ternary main_v91 main_v93 main_v89 main_v94 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v94 main_v95 (broadcastInDim S200000x1 ![0] bcast_S200000_S200000x1_0 : (⟨S200000, .i32⟩ : BufTy).Contents (Elt F) → (⟨S200000x1, .i32⟩ : BufTy).Contents (Elt F)),
    binary main_v87 main_v95 main_v96 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)),
    unary main_arg2 main_v97 ((extractStridedSlice S1x200000 ![1, 0] · slices_S2x200000_S1x200000_1_0) : (⟨S2x200000, .i32⟩ : BufTy).Contents (Elt F) → (⟨S1x200000, .i32⟩ : BufTy).Contents (Elt F)),
    reshape main_v97 main_v98 rfl shapeCasts_S1x200000_S200000,
    nullary main_c_22 (constantI S_ 32 0#32),
    unary main_c_22 main_v99 (broadcastInDim S200000 ![] bcast_S_S200000 : (⟨S_, .i32⟩ : BufTy).Contents (Elt F) → (⟨S200000, .i32⟩ : BufTy).Contents (Elt F)),
    binary main_v98 main_v99 main_v100 (cmpi .slt : (⟨S200000, .i32⟩ : BufTy).Contents (Elt F) → (⟨S200000, .i32⟩ : BufTy).Contents (Elt F) → (⟨S200000, .i1⟩ : BufTy).Contents (Elt F)),
    nullary main_c_23 (constantI S_ 32 100000#32),
    unary main_c_23 main_v101 (broadcastInDim S200000 ![] bcast_S_S200000 : (⟨S_, .i32⟩ : BufTy).Contents (Elt F) → (⟨S200000, .i32⟩ : BufTy).Contents (Elt F)),
    binary main_v98 main_v101 main_v102 (addi : (⟨S200000, .i32⟩ : BufTy).Contents (Elt F) → (⟨S200000, .i32⟩ : BufTy).Contents (Elt F) → (⟨S200000, .i32⟩ : BufTy).Contents (Elt F)),
    ternary main_v100 main_v102 main_v98 main_v103 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v103 main_v104 (broadcastInDim S200000x1 ![0] bcast_S200000_S200000x1_0 : (⟨S200000, .i32⟩ : BufTy).Contents (Elt F) → (⟨S200000x1, .i32⟩ : BufTy).Contents (Elt F)),
    binary main_v87 main_v104 main_v105 ((fun x i => Host.gather gather_S100000x64_S200000x1_S200000x64_1_0_n_n_0_1_164 x i) : (⟨S100000x64, .f32⟩ : BufTy).Contents (Elt F) → (⟨S200000x1, .i32⟩ : BufTy).Contents (Elt F) → (⟨S200000x64, .f32⟩ : BufTy).Contents (Elt F)) ]

/-- The decoder's features: the two embeddings, their product and their absolute difference, side by side. -/
abbrev featsOps : List (HloOp τ sig (Elt F)) :=
  [ binary main_v96 main_v105 main_v106 (mulf : (⟨S200000x64, .f32⟩ : BufTy).Contents (Elt F) → (⟨S200000x64, .f32⟩ : BufTy).Contents (Elt F) → (⟨S200000x64, .f32⟩ : BufTy).Contents (Elt F)),
    binary main_v96 main_v105 main_v107 (subf : (⟨S200000x64, .f32⟩ : BufTy).Contents (Elt F) → (⟨S200000x64, .f32⟩ : BufTy).Contents (Elt F) → (⟨S200000x64, .f32⟩ : BufTy).Contents (Elt F)),
    unary main_v107 main_v108 (Host.absf : (⟨S200000x64, .f32⟩ : BufTy).Contents (Elt F) → (⟨S200000x64, .f32⟩ : BufTy).Contents (Elt F)),
    nary ![main_v96, main_v105, main_v106, main_v108] main_v109 (fun u => concatenate S200000x256 1 [⟨S200000x64, u 0⟩, ⟨S200000x64, u 1⟩, ⟨S200000x64, u 2⟩, ⟨S200000x64, u 3⟩] concatenates_S200000x64_S200000x64_S200000x64_S200000x64_S200000x256_d1) ]

/-- The decoder's first layer and its bias. -/
abbrev mlp1Ops : List (HloOp τ sig (Elt F)) :=
  [ binary main_v109 main_arg7 main_v110 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    unary main_arg8 main_v111 (broadcastInDim S1x256 ![1] bcast_S256_S1x256_1 : (⟨S256, .f32⟩ : BufTy).Contents (Elt F) → (⟨S1x256, .f32⟩ : BufTy).Contents (Elt F)),
    unary main_v111 main_v112 (broadcastInDim S200000x256 ![0, 1] bcast_S1x256_S200000x256_0_1 : (⟨S1x256, .f32⟩ : BufTy).Contents (Elt F) → (⟨S200000x256, .f32⟩ : BufTy).Contents (Elt F)),
    binary main_v110 main_v112 main_v113 (addf : (⟨S200000x256, .f32⟩ : BufTy).Contents (Elt F) → (⟨S200000x256, .f32⟩ : BufTy).Contents (Elt F) → (⟨S200000x256, .f32⟩ : BufTy).Contents (Elt F)) ]

/-- The decoder's maximum with zero (the outlined function, stated at the references themselves). -/
abbrev relu3Ops : List (HloOp τ sig (Elt F)) :=
  [ nullary main_call3_cst (constant S_ .f32 0x00000000#32),
    unary main_call3_cst main_call3_v0 (broadcastInDim S200000x256 ![] bcast_S_S200000x256 : (⟨S_, .f32⟩ : BufTy).Contents (Elt F) → (⟨S200000x256, .f32⟩ : BufTy).Contents (Elt F)),
    binary main_v113 main_call3_v0 main_v114 (maximumf : (⟨S200000x256, .f32⟩ : BufTy).Contents (Elt F) → (⟨S200000x256, .f32⟩ : BufTy).Contents (Elt F) → (⟨S200000x256, .f32⟩ : BufTy).Contents (Elt F)) ]

/-- The decoder's output layer. -/
abbrev logitsOps : List (HloOp τ sig (Elt F)) :=
  [ binary main_v114 main_arg9 main_v115 ((fun l r => Host.dotGeneral dot_S200000x256_S256x1_S200000x1_1_0_0_1_n_n none l r) : (⟨S200000x256, .f32⟩ : BufTy).Contents (Elt F) → (⟨S256x1, .f32⟩ : BufTy).Contents (Elt F) → (⟨S200000x1, .f32⟩ : BufTy).Contents (Elt F)),
    unary main_arg10 main_v116 (broadcastInDim S1x1 ![1] bcast_S1_S1x1_1 : (⟨S1, .f32⟩ : BufTy).Contents (Elt F) → (⟨S1x1, .f32⟩ : BufTy).Contents (Elt F)),
    unary main_v116 main_v117 (broadcastInDim S200000x1 ![0, 1] bcast_S1x1_S200000x1_0_1 : (⟨S1x1, .f32⟩ : BufTy).Contents (Elt F) → (⟨S200000x1, .f32⟩ : BufTy).Contents (Elt F)),
    binary main_v115 main_v117 main_v118 (addf : (⟨S200000x1, .f32⟩ : BufTy).Contents (Elt F) → (⟨S200000x1, .f32⟩ : BufTy).Contents (Elt F) → (⟨S200000x1, .f32⟩ : BufTy).Contents (Elt F)) ]

/-- The logits' column as a vector. -/
abbrev flattenOps : List (HloOp τ sig (Elt F)) :=
  [ reshape main_v118 main_v119 rfl shapeCasts_S200000x1_S200000 ]

/-- The reference's 154 operations are these fifteen lists in a row. -/
theorem ops_cut : (Cert.ReferenceIdeal.ValueP.ops : List (HloOp τ sig (Elt F))) =
    edgesOps ++ (proj1Ops ++ (degree1Ops ++ (coeff1Ops ++ (sum1Ops ++ (relu1Ops ++ (proj2Ops ++ (degree2Ops ++ (coeff2Ops ++ (pairsOps ++ (featsOps ++ (mlp1Ops ++ (relu3Ops ++ (logitsOps ++ (flattenOps)))))))))))))) := rfl

end Cut

/-- Two lists of operations in a row: the second runs from what the first leaves. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-! ## Each list read from arbitrary contents `U`: its results are the reference's stages of what it finds -/

section Lists
variable (U : Valuation τ sig (Elt Ideal))
variable (x0 : (⟨S100000x128, .f32⟩ : BufTy).Contents (Elt Ideal))
  (x1 : (⟨S2x1600000, .i32⟩ : BufTy).Contents (Elt Ideal))
  (x2 : (⟨S2x200000, .i32⟩ : BufTy).Contents (Elt Ideal))
  (x3 : (⟨S128x128, .f32⟩ : BufTy).Contents (Elt Ideal))
  (x4 : (⟨S128, .f32⟩ : BufTy).Contents (Elt Ideal))
  (x5 : (⟨S128x64, .f32⟩ : BufTy).Contents (Elt Ideal))
  (x6 : (⟨S64, .f32⟩ : BufTy).Contents (Elt Ideal))
  (x7 : (⟨S256x256, .f32⟩ : BufTy).Contents (Elt Ideal))
  (x8 : (⟨S256, .f32⟩ : BufTy).Contents (Elt Ideal))
  (x9 : (⟨S256x1, .f32⟩ : BufTy).Contents (Elt Ideal))
  (x10 : (⟨S1, .f32⟩ : BufTy).Contents (Elt Ideal))

/-- The source node of every edge, self loops appended … -/
theorem edges_src (h1 : U (Proc.devRef .tc main_arg1) = x1) :
    StableHlo.after edgesOps U (Proc.devRef .tc main_v3) = val_main_v3 (F := Ideal) x1 := by
  subst h1
  after_results
  rfl

/-- … and the destination node. -/
theorem edges_dst (h1 : U (Proc.devRef .tc main_arg1) = x1) :
    StableHlo.after edgesOps U (Proc.devRef .tc main_v6) = val_main_v6 (F := Ideal) x1 := by
  subst h1
  after_results
  rfl

/-- The first projection. -/
theorem proj1 (h0 : U (Proc.devRef .tc main_arg0) = x0) (ha3 : U (Proc.devRef .tc main_arg3) = x3) :
    StableHlo.after proj1Ops U (Proc.devRef .tc main_v7) = val_main_v7 (F := Ideal) x0 x3 := by
  after_results_simp
  rw [h0, ha3]
  rfl

/-- Where the degree is positive … -/
theorem degree1_pos (h6 : U (Proc.devRef .tc main_v6) = val_main_v6 (F := Ideal) x1) :
    StableHlo.after degree1Ops U (Proc.devRef .tc main_v13) = val_main_v13 (F := Ideal) x1 := by
  after_results_simp
  rw [h6]
  rfl

/-- … its inverse square root … -/
theorem degree1_rsqrt (h6 : U (Proc.devRef .tc main_v6) = val_main_v6 (F := Ideal) x1) :
    StableHlo.after degree1Ops U (Proc.devRef .tc main_v14) = val_main_v14 (F := Ideal) x1 := by
  after_results_simp
  rw [h6]
  rfl

/-- … and the zero it is replaced by elsewhere. -/
theorem degree1_zero  :
    StableHlo.after degree1Ops U (Proc.devRef .tc main_cst_2) = val_main_cst_2 (F := Ideal) := by
  after_results_simp
  rfl

/-- The normalizing coefficient of a node. -/
theorem coeff1 (h13 : U (Proc.devRef .tc main_v13) = val_main_v13 (F := Ideal) x1) (h14 : U (Proc.devRef .tc main_v14) = val_main_v14 (F := Ideal) x1) (hc : U (Proc.devRef .tc main_cst_2) = val_main_cst_2 (F := Ideal)) :
    StableHlo.after coeff1Ops U (Proc.devRef .tc main_v15) = val_main_v15 (F := Ideal) x1 := by
  after_results_simp
  rw [h13, h14, hc]
  rfl

/-- The first layer's aggregation and bias. -/
theorem sum1 (h15 : U (Proc.devRef .tc main_v15) = val_main_v15 (F := Ideal) x1) (h7 : U (Proc.devRef .tc main_v7) = val_main_v7 (F := Ideal) x0 x3) (h3 : U (Proc.devRef .tc main_v3) = val_main_v3 (F := Ideal) x1) (h6 : U (Proc.devRef .tc main_v6) = val_main_v6 (F := Ideal) x1) (h4 : U (Proc.devRef .tc main_arg4) = x4) :
    StableHlo.after sum1Ops U (Proc.devRef .tc main_v46) = val_main_v46 (F := Ideal) x0 x1 x3 x4 := by
  after_results_simp
  rw [h15, h7, h3, h6, h4]
  rfl

/-- Its maximum with zero. -/
theorem relu1 (h46 : U (Proc.devRef .tc main_v46) = val_main_v46 (F := Ideal) x0 x1 x3 x4) :
    StableHlo.after relu1Ops U (Proc.devRef .tc main_v47) = val_main_v47 (F := Ideal) x0 x1 x3 x4 := by
  after_results_simp
  rw [h46]
  rfl

/-- The second projection. -/
theorem proj2 (h47 : U (Proc.devRef .tc main_v47) = val_main_v47 (F := Ideal) x0 x1 x3 x4) (h5 : U (Proc.devRef .tc main_arg5) = x5) :
    StableHlo.after proj2Ops U (Proc.devRef .tc main_v48) = val_main_v48 (F := Ideal) x0 x1 x3 x4 x5 := by
  after_results_simp
  rw [h47, h5]
  rfl

/-- The degrees again: where positive … -/
theorem degree2_pos (h6 : U (Proc.devRef .tc main_v6) = val_main_v6 (F := Ideal) x1) :
    StableHlo.after degree2Ops U (Proc.devRef .tc main_v54) = val_main_v54 (F := Ideal) x1 := by
  after_results_simp
  rw [h6]
  rfl

/-- … the inverse square root … -/
theorem degree2_rsqrt (h6 : U (Proc.devRef .tc main_v6) = val_main_v6 (F := Ideal) x1) :
    StableHlo.after degree2Ops U (Proc.devRef .tc main_v55) = val_main_v55 (F := Ideal) x1 := by
  after_results_simp
  rw [h6]
  rfl

/-- … and the zero. -/
theorem degree2_zero  :
    StableHlo.after degree2Ops U (Proc.devRef .tc main_cst_12) = val_main_cst_12 (F := Ideal) := by
  after_results_simp
  rfl

/-- The normalizing coefficient again. -/
theorem coeff2 (h54 : U (Proc.devRef .tc main_v54) = val_main_v54 (F := Ideal) x1) (h55 : U (Proc.devRef .tc main_v55) = val_main_v55 (F := Ideal) x1) (hc : U (Proc.devRef .tc main_cst_12) = val_main_cst_12 (F := Ideal)) :
    StableHlo.after coeff2Ops U (Proc.devRef .tc main_v56) = val_main_v56 (F := Ideal) x1 := by
  after_results_simp
  rw [h54, h55, hc]
  rfl

/-- The second layer's embeddings gathered at the pairs' source nodes … -/
theorem pairs_src (h56 : U (Proc.devRef .tc main_v56) = val_main_v56 (F := Ideal) x1) (h48 : U (Proc.devRef .tc main_v48) = val_main_v48 (F := Ideal) x0 x1 x3 x4 x5) (h3 : U (Proc.devRef .tc main_v3) = val_main_v3 (F := Ideal) x1) (h6 : U (Proc.devRef .tc main_v6) = val_main_v6 (F := Ideal) x1) (ha6 : U (Proc.devRef .tc main_arg6) = x6) (ha2 : U (Proc.devRef .tc main_arg2) = x2) :
    StableHlo.after pairsOps U (Proc.devRef .tc main_v96) = val_main_v96 (F := Ideal) x0 x1 x2 x3 x4 x5 x6 := by
  after_results_simp
  rw [h56, h48, h3, h6, ha6, ha2]
  rfl

/-- … and at their destination nodes. -/
theorem pairs_dst (h56 : U (Proc.devRef .tc main_v56) = val_main_v56 (F := Ideal) x1) (h48 : U (Proc.devRef .tc main_v48) = val_main_v48 (F := Ideal) x0 x1 x3 x4 x5) (h3 : U (Proc.devRef .tc main_v3) = val_main_v3 (F := Ideal) x1) (h6 : U (Proc.devRef .tc main_v6) = val_main_v6 (F := Ideal) x1) (ha6 : U (Proc.devRef .tc main_arg6) = x6) (ha2 : U (Proc.devRef .tc main_arg2) = x2) :
    StableHlo.after pairsOps U (Proc.devRef .tc main_v105) = val_main_v105 (F := Ideal) x0 x1 x2 x3 x4 x5 x6 := by
  after_results_simp
  rw [h56, h48, h3, h6, ha6, ha2]
  rfl

/-- The decoder's features: each of the four groups read at its own reference, then the two derived ones. -/
theorem feats (h96 : U (Proc.devRef .tc main_v96) = val_main_v96 (F := Ideal) x0 x1 x2 x3 x4 x5 x6) (h105 : U (Proc.devRef .tc main_v105) = val_main_v105 (F := Ideal) x0 x1 x2 x3 x4 x5 x6) :
    StableHlo.after featsOps U (Proc.devRef .tc main_v109) = val_main_v109 (F := Ideal) x0 x1 x2 x3 x4 x5 x6 := by
  after_results
  refine (show _ = (concatenate S200000x256 1
      [⟨S200000x64, U (Proc.devRef .tc main_v96)⟩, ⟨S200000x64, U (Proc.devRef .tc main_v105)⟩,
       ⟨S200000x64, mulf (F := Ideal) (s := S200000x64) (φ := .f32) (U (Proc.devRef .tc main_v96)) (U (Proc.devRef .tc main_v105))⟩,
       ⟨S200000x64, Host.absf (F := Ideal) (s := S200000x64) (φ := .f32) (subf (F := Ideal) (s := S200000x64) (φ := .f32) (U (Proc.devRef .tc main_v96)) (U (Proc.devRef .tc main_v105)))⟩]
      concatenates_S200000x64_S200000x64_S200000x64_S200000x64_S200000x256_d1 : (⟨S200000x256, .f32⟩ : BufTy).Contents (Elt Ideal)) from rfl).trans ?_
  rw [h96, h105]
  rfl

/-- The decoder's first layer on the features, plus its bias. -/
theorem mlp1 (h109 : U (Proc.devRef .tc main_v109) = val_main_v109 (F := Ideal) x0 x1 x2 x3 x4 x5 x6) (ha7 : U (Proc.devRef .tc main_arg7) = x7) (ha8 : U (Proc.devRef .tc main_arg8) = x8) :
    StableHlo.after mlp1Ops U (Proc.devRef .tc main_v113) = val_main_v113 (F := Ideal) x0 x1 x2 x3 x4 x5 x6 x7 x8 := by
  after_results_simp
  rw [h109, ha7, ha8]
  rfl

/-- Its maximum with zero. -/
theorem relu3 (h113 : U (Proc.devRef .tc main_v113) = val_main_v113 (F := Ideal) x0 x1 x2 x3 x4 x5 x6 x7 x8) :
    StableHlo.after relu3Ops U (Proc.devRef .tc main_v114) = val_main_v114 (F := Ideal) x0 x1 x2 x3 x4 x5 x6 x7 x8 := by
  after_results_simp
  rw [h113]
  rfl

/-- The output layer. -/
theorem logits (h114 : U (Proc.devRef .tc main_v114) = val_main_v114 (F := Ideal) x0 x1 x2 x3 x4 x5 x6 x7 x8) (ha9 : U (Proc.devRef .tc main_arg9) = x9) (ha10 : U (Proc.devRef .tc main_arg10) = x10) :
    StableHlo.after logitsOps U (Proc.devRef .tc main_v118) = val_main_v118 (F := Ideal) x0 x1 x2 x3 x4 x5 x6 x7 x8 x9 x10 := by
  after_results_simp
  rw [h114, ha9, ha10]
  rfl

/-- The logits as a vector: the reshape's transport is the identity, seen before the stage is put in. -/
theorem flatten (h118 : U (Proc.devRef .tc main_v118) = val_main_v118 (F := Ideal) x0 x1 x2 x3 x4 x5 x6 x7 x8 x9 x10) :
    StableHlo.after flattenOps U (Proc.devRef .tc main_v119) = val_main_v119 (F := Ideal) x0 x1 x2 x3 x4 x5 x6 x7 x8 x9 x10 := by
  after_results
  refine (show _ = shapeCast S200000 (U (Proc.devRef .tc main_v118)) shapeCasts_S200000x1_S200000 from rfl).trans ?_
  rw [h118]
  rfl

/-- The second projection is left alone by the two lists after it. -/
theorem keep_v48 : StableHlo.after coeff2Ops (StableHlo.after degree2Ops U) (Proc.devRef .tc main_v48) = U (Proc.devRef .tc main_v48) := by
  after_results_simp

end Lists

/-! ## The whole fold: the lists nested, each reading what the ones before it left -/

section Whole
variable (V : Valuation τ sig (Elt Ideal))

/-- The contents after the first `k` lists. -/
abbrev upTo1 : Valuation τ sig (Elt Ideal) := StableHlo.after edgesOps V
abbrev upTo2 : Valuation τ sig (Elt Ideal) := StableHlo.after proj1Ops (upTo1 V)
abbrev upTo3 : Valuation τ sig (Elt Ideal) := StableHlo.after degree1Ops (upTo2 V)
abbrev upTo4 : Valuation τ sig (Elt Ideal) := StableHlo.after coeff1Ops (upTo3 V)
abbrev upTo5 : Valuation τ sig (Elt Ideal) := StableHlo.after sum1Ops (upTo4 V)
abbrev upTo6 : Valuation τ sig (Elt Ideal) := StableHlo.after relu1Ops (upTo5 V)
abbrev upTo7 : Valuation τ sig (Elt Ideal) := StableHlo.after proj2Ops (upTo6 V)
abbrev upTo8 : Valuation τ sig (Elt Ideal) := StableHlo.after degree2Ops (upTo7 V)
abbrev upTo9 : Valuation τ sig (Elt Ideal) := StableHlo.after coeff2Ops (upTo8 V)
abbrev upTo10 : Valuation τ sig (Elt Ideal) := StableHlo.after pairsOps (upTo9 V)
abbrev upTo11 : Valuation τ sig (Elt Ideal) := StableHlo.after featsOps (upTo10 V)
abbrev upTo12 : Valuation τ sig (Elt Ideal) := StableHlo.after mlp1Ops (upTo11 V)
abbrev upTo13 : Valuation τ sig (Elt Ideal) := StableHlo.after relu3Ops (upTo12 V)
abbrev upTo14 : Valuation τ sig (Elt Ideal) := StableHlo.after logitsOps (upTo13 V)
abbrev upTo15 : Valuation τ sig (Elt Ideal) := StableHlo.after flattenOps (upTo14 V)

/-! What the first `k` lists leave at each stage's reference is that stage of the arguments found in `V`. A list's
    own results come from its lemma above; what it reads and an earlier list wrote, or nobody wrote, is read back
    through the lists that leave it alone (the second projection's result by `keep_v48`). -/

theorem s_v3 : upTo1 V (Proc.devRef .tc main_v3) = val_main_v3 (F := Ideal) (V (Proc.devRef .tc main_arg1)) :=
  edges_src V _ rfl
theorem s_v6 : upTo1 V (Proc.devRef .tc main_v6) = val_main_v6 (F := Ideal) (V (Proc.devRef .tc main_arg1)) :=
  edges_dst V _ rfl
theorem s_v7 : upTo2 V (Proc.devRef .tc main_v7) = val_main_v7 (F := Ideal) (V (Proc.devRef .tc main_arg0)) (V (Proc.devRef .tc main_arg3)) :=
  proj1 (upTo1 V) _ _ (by after_results_simp <;> rfl) (by after_results_simp <;> rfl)
theorem s_v13 : upTo3 V (Proc.devRef .tc main_v13) = val_main_v13 (F := Ideal) (V (Proc.devRef .tc main_arg1)) :=
  degree1_pos (upTo2 V) _ (by after_results_simp <;> rfl)
theorem s_v14 : upTo3 V (Proc.devRef .tc main_v14) = val_main_v14 (F := Ideal) (V (Proc.devRef .tc main_arg1)) :=
  degree1_rsqrt (upTo2 V) _ (by after_results_simp <;> rfl)
theorem s_cst_2 : upTo3 V (Proc.devRef .tc main_cst_2) = val_main_cst_2 (F := Ideal) :=
  degree1_zero (upTo2 V)
theorem s_v15 : upTo4 V (Proc.devRef .tc main_v15) = val_main_v15 (F := Ideal) (V (Proc.devRef .tc main_arg1)) :=
  coeff1 (upTo3 V) _ (s_v13 V) (s_v14 V) (s_cst_2 V)
theorem s_v46 : upTo5 V (Proc.devRef .tc main_v46) = val_main_v46 (F := Ideal) (V (Proc.devRef .tc main_arg0)) (V (Proc.devRef .tc main_arg1)) (V (Proc.devRef .tc main_arg3)) (V (Proc.devRef .tc main_arg4)) :=
  sum1 (upTo4 V) _ _ _ _ (s_v15 V) (by after_results_simp <;> rfl) (by after_results_simp <;> rfl) (by after_results_simp <;> rfl) (by after_results_simp <;> rfl)
theorem s_v47 : upTo6 V (Proc.devRef .tc main_v47) = val_main_v47 (F := Ideal) (V (Proc.devRef .tc main_arg0)) (V (Proc.devRef .tc main_arg1)) (V (Proc.devRef .tc main_arg3)) (V (Proc.devRef .tc main_arg4)) :=
  relu1 (upTo5 V) _ _ _ _ (s_v46 V)
theorem s_v48 : upTo7 V (Proc.devRef .tc main_v48) = val_main_v48 (F := Ideal) (V (Proc.devRef .tc main_arg0)) (V (Proc.devRef .tc main_arg1)) (V (Proc.devRef .tc main_arg3)) (V (Proc.devRef .tc main_arg4)) (V (Proc.devRef .tc main_arg5)) :=
  proj2 (upTo6 V) _ _ _ _ _ (s_v47 V) (by after_results_simp <;> rfl)
theorem s_v54 : upTo8 V (Proc.devRef .tc main_v54) = val_main_v54 (F := Ideal) (V (Proc.devRef .tc main_arg1)) :=
  degree2_pos (upTo7 V) _ (by after_results_simp <;> rfl)
theorem s_v55 : upTo8 V (Proc.devRef .tc main_v55) = val_main_v55 (F := Ideal) (V (Proc.devRef .tc main_arg1)) :=
  degree2_rsqrt (upTo7 V) _ (by after_results_simp <;> rfl)
theorem s_cst_12 : upTo8 V (Proc.devRef .tc main_cst_12) = val_main_cst_12 (F := Ideal) :=
  degree2_zero (upTo7 V)
theorem s_v56 : upTo9 V (Proc.devRef .tc main_v56) = val_main_v56 (F := Ideal) (V (Proc.devRef .tc main_arg1)) :=
  coeff2 (upTo8 V) _ (s_v54 V) (s_v55 V) (s_cst_12 V)
theorem s_v96 : upTo10 V (Proc.devRef .tc main_v96) = val_main_v96 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  pairs_src (upTo9 V) _ _ _ _ _ _ _ (s_v56 V) ((keep_v48 (upTo7 V)).trans (s_v48 V)) (by after_results_simp <;> rfl) (by after_results_simp <;> rfl) (by after_results_simp <;> rfl) (by after_results_simp <;> rfl)
theorem s_v105 : upTo10 V (Proc.devRef .tc main_v105) = val_main_v105 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  pairs_dst (upTo9 V) _ _ _ _ _ _ _ (s_v56 V) ((keep_v48 (upTo7 V)).trans (s_v48 V)) (by after_results_simp <;> rfl) (by after_results_simp <;> rfl) (by after_results_simp <;> rfl) (by after_results_simp <;> rfl)
theorem s_v109 : upTo11 V (Proc.devRef .tc main_v109) = val_main_v109 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) :=
  feats (upTo10 V) _ _ _ _ _ _ _ (s_v96 V) (s_v105 V)
theorem s_v113 : upTo12 V (Proc.devRef .tc main_v113) = val_main_v113 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  mlp1 (upTo11 V) _ _ _ _ _ _ _ _ _ (s_v109 V) (by after_results_simp <;> rfl) (by after_results_simp <;> rfl)
theorem s_v114 : upTo13 V (Proc.devRef .tc main_v114) = val_main_v114 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  relu3 (upTo12 V) _ _ _ _ _ _ _ _ _ (s_v113 V)
theorem s_v118 : upTo14 V (Proc.devRef .tc main_v118) = val_main_v118 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  logits (upTo13 V) _ _ _ _ _ _ _ _ _ _ _ (s_v114 V) (by after_results_simp <;> rfl) (by after_results_simp <;> rfl)
theorem s_v119 : upTo15 V (Proc.devRef .tc main_v119) = val_main_v119 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  flatten (upTo14 V) _ _ _ _ _ _ _ _ _ _ _ (s_v118 V)

/-- THE REFERENCE'S RESULT: after all its operations, from any contents, the result's buffer holds the last stage
    of the eleven arguments found there. -/
theorem result : StableHlo.after (Cert.ReferenceIdeal.ValueP.ops (F := Ideal)) V (Proc.devRef .tc main_v119)
    = val_main_v119 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_cut]
  simp only [after_append]
  exact s_v119 V

/-! No operation writes an argument. -/

theorem keep_arg0 : StableHlo.after (Cert.ReferenceIdeal.ValueP.ops (F := Ideal)) V (Proc.devRef .tc main_arg0) = V (Proc.devRef .tc main_arg0) := by
  after_results_simp
theorem keep_arg1 : StableHlo.after (Cert.ReferenceIdeal.ValueP.ops (F := Ideal)) V (Proc.devRef .tc main_arg1) = V (Proc.devRef .tc main_arg1) := by
  after_results_simp
theorem keep_arg2 : StableHlo.after (Cert.ReferenceIdeal.ValueP.ops (F := Ideal)) V (Proc.devRef .tc main_arg2) = V (Proc.devRef .tc main_arg2) := by
  after_results_simp
theorem keep_arg3 : StableHlo.after (Cert.ReferenceIdeal.ValueP.ops (F := Ideal)) V (Proc.devRef .tc main_arg3) = V (Proc.devRef .tc main_arg3) := by
  after_results_simp
theorem keep_arg4 : StableHlo.after (Cert.ReferenceIdeal.ValueP.ops (F := Ideal)) V (Proc.devRef .tc main_arg4) = V (Proc.devRef .tc main_arg4) := by
  after_results_simp
theorem keep_arg5 : StableHlo.after (Cert.ReferenceIdeal.ValueP.ops (F := Ideal)) V (Proc.devRef .tc main_arg5) = V (Proc.devRef .tc main_arg5) := by
  after_results_simp
theorem keep_arg6 : StableHlo.after (Cert.ReferenceIdeal.ValueP.ops (F := Ideal)) V (Proc.devRef .tc main_arg6) = V (Proc.devRef .tc main_arg6) := by
  after_results_simp
theorem keep_arg7 : StableHlo.after (Cert.ReferenceIdeal.ValueP.ops (F := Ideal)) V (Proc.devRef .tc main_arg7) = V (Proc.devRef .tc main_arg7) := by
  after_results_simp
theorem keep_arg8 : StableHlo.after (Cert.ReferenceIdeal.ValueP.ops (F := Ideal)) V (Proc.devRef .tc main_arg8) = V (Proc.devRef .tc main_arg8) := by
  after_results_simp
theorem keep_arg9 : StableHlo.after (Cert.ReferenceIdeal.ValueP.ops (F := Ideal)) V (Proc.devRef .tc main_arg9) = V (Proc.devRef .tc main_arg9) := by
  after_results_simp
theorem keep_arg10 : StableHlo.after (Cert.ReferenceIdeal.ValueP.ops (F := Ideal)) V (Proc.devRef .tc main_arg10) = V (Proc.devRef .tc main_arg10) := by
  after_results_simp

end Whole

end Cert.Bridge.RefHost

end
-- ==== Proof.RefRun.lean ====
/-
  The reference program's run, stated over its stages.

  The reference's @main is a straight line of 154 host operations. Every weakly fair execution of it terminates with
  each buffer at the fold of the operations' results over the launch contents; read at the result buffer that fold is the
  reference's last stage — the reshape of the decoder's column — of the launch contents of the eleven arguments, and
  read at an argument's buffer it is what was launched, no operation writing an argument.
-/
import proofs.«124321_j44160853737915_1_alg».proof.Proof.RefRead
import proofs.«124321_j44160853737915_1_alg».proof.Proof.RefHost
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

/-- On every device, from any memory with zero counters: every weakly fair execution of the reference's @main
    terminates with the result at the last stage of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v119) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v119).trans (Cert.Bridge.RefHost.result (launchContents m c)),
      (h c main_arg0).trans (Cert.Bridge.RefHost.keep_arg0 (launchContents m c)),
      (h c main_arg1).trans (Cert.Bridge.RefHost.keep_arg1 (launchContents m c)),
      (h c main_arg2).trans (Cert.Bridge.RefHost.keep_arg2 (launchContents m c)),
      (h c main_arg3).trans (Cert.Bridge.RefHost.keep_arg3 (launchContents m c)),
      (h c main_arg4).trans (Cert.Bridge.RefHost.keep_arg4 (launchContents m c)),
      (h c main_arg5).trans (Cert.Bridge.RefHost.keep_arg5 (launchContents m c)),
      (h c main_arg6).trans (Cert.Bridge.RefHost.keep_arg6 (launchContents m c)),
      (h c main_arg7).trans (Cert.Bridge.RefHost.keep_arg7 (launchContents m c)),
      (h c main_arg8).trans (Cert.Bridge.RefHost.keep_arg8 (launchContents m c)),
      (h c main_arg9).trans (Cert.Bridge.RefHost.keep_arg9 (launchContents m c)),
      (h c main_arg10).trans (Cert.Bridge.RefHost.keep_arg10 (launchContents m c))⟩)
    (run_seq scopedRefs_eq scopedSems_eq defs main (fun _ => ops) main_eq (fun _ => ops_sub) m ρ)

end Cert.ReferenceIdeal.ValueP

end
-- ==== Proof.KRun.lean ====
/-
  The idealized kernel program's run with its RESULT named.

  The generated frame certificate runs @main as twelve segments (host stretches and the three kernel regions) and
  reads, of the final thread state "every unscoped buffer at the last boundary's contents", only the arguments. Read
  here at the result buffer as well: the result array ends at the last boundary's contents `W12` at the result's
  reference, the arguments unchanged. The launch over the segments is the generated frame's, with one more buffer
  read off the final state.
-/
import proofs.«124321_j44160853737915_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v109) = W12 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v109 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Result

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«124321_j44160853737915_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Reg0.lean ====
/-
  Region 0: a matrix product tiled over its rows is the one product.

  The region's grid has 20 points. Point `t` takes rows `5000 t … 5000 t + 4999` of the `100000×128` left array and
  the whole `128×128` right array, multiplies them into a zero accumulator and writes the `5000×128` result to the
  same rows of the output array. The casts of both operands to a narrower float format are the identity on the
  extended reals, so entry `(p, q)` of what point `t` writes is `∑ k, A (5000 t + p, k) * W (k, q)`: entry
  `(5000 t + p, q)` of the one product `A · W`. The 20 row blocks cover the output array, so after the grid has run
  the output array is the host's product of the two input arrays as the region found them.
-/
import proofs.«124321_j44160853737915_1_alg».proof.Proof.Gen.KernelIdeal.Frame
import proofs.«124321_j44160853737915_1_alg».proof.Proof.Gen.ReferenceIdeal
import proofs.«124321_j44160853737915_1_alg».proof.Proof.LibRowBlock
import Idealize.ShloMosaic.Lib.Pipeline.Value
import Idealize.ShloMosaic.Lib.ValueIdx
import Idealize.ShloMosaic.PureOps.Ideal.Laws

noncomputable section

namespace Cert.Bridge.Reg0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- The whole product: the host's `dot_general` of the left and right arrays as the region finds them. -/
abbrev product (c : Dev nD) : S100000x128.Idx → Elt Ideal .f32 :=
  Host.dotGeneral (F := Ideal) (φ₁ := .f32) (φ₂ := .f32) Cert.ReferenceIdeal.dot_S100000x128_S128x128_S100000x128_1_0_0_1_n_n none
    (V c main_arg0) (V c main_arg3)

/-- The block index maps over the grid: the left operand's row block moves with the output's, every other block
    index is zero, and the output's row block stays below 20. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks is some point's. -/
theorem block_onto : ∀ r : Fin 20, ∃ t : Fin cfg0.N, win0_2.index t (0 : Fin 2) = r.val :=
  (by decide +kernel : ∀ r : Fin 20, ∃ t : Fin grid0.N, win0_2.index t (0 : Fin 2) = r.val)

/-- Entry `(p, q)` of the body's result on a row block `x` and a right operand `w`: when row `p` of `x` is row `P` of
    `A` and column `q` of `w` is column `q` of `W`, it is entry `(P, q)` of the product `A · W` (the two casts are the
    identity on the extended reals, and the block's product into the zero accumulator is the same sum term by term). -/
theorem payload_apply (A : FVec Ideal ⟨2, ![100000, 128]⟩ .f32) (W : FVec Ideal ⟨2, ![128, 128]⟩ .f32)
    (x : FVec Ideal ⟨2, ![5000, 128]⟩ .f32) (w : FVec Ideal ⟨2, ![128, 128]⟩ .f32)
    (P : Fin 100000) (p : Fin 5000) (q : Fin 128)
    (hx : ∀ k : Fin 128, (x (ix2 p k) : EReal) = A (ix2 P k)) (hw : ∀ k : Fin 128, (w (ix2 k q) : EReal) = W (ix2 k q)) :
    k0_pay1 (F := Ideal) x w (ix2 p q)
      = Host.dotGeneral (F := Ideal) Cert.ReferenceIdeal.dot_S100000x128_S128x128_S100000x128_1_0_0_1_n_n none A W (ix2 P q) := by
  unfold k0_pay1
  exact Cert.Lib.RowBlock.matmul_eq_dotGeneral none none .single A W x w P p q hx hw

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  funext j
  obtain ⟨p, q, rfl⟩ : ∃ (p : Fin 5000) (q : Fin 128), j = ix2 p q := ⟨j 0, j 1, eq_ix2 j⟩
  have hp : p.val < 5000 := p.isLt
  have hrow : win0_2.index t (0 : Fin 2) * 5000 + p.val < 100000 := by omega
  show k0_pay1 (F := Ideal) (iblk0 V c 0 t) (iblk0 V c 1 t) (ix2 p q)
    = product V c (((cfg0.win 2).blk t).view.emb (ix2 p q))
  have hemb : ((cfg0.win 2).blk t).view.emb (ix2 p q)
      = (ix2 (⟨win0_2.index t (0 : Fin 2) * 5000 + p.val, hrow⟩ : Fin 100000) q : S100000x128.Idx) := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hemb]
  refine payload_apply (V c main_arg0) (V c main_arg3) _ _ ⟨_, hrow⟩ p q (fun k => ?_) (fun k => ?_)
  · show V c main_arg0 (((cfg0.win 0).blk t).view.emb (ix2 p k))
      = V c main_arg0 (ix2 (⟨win0_2.index t (0 : Fin 2) * 5000 + p.val, hrow⟩ : Fin 100000) k : S100000x128.Idx)
    refine congrArg _ (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · show V c main_arg3 (((cfg0.win 1).blk t).view.emb (ix2 k q)) = V c main_arg3 (ix2 k q : S128x128.Idx)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- The row blocks cover the output array: row `r` is in the block of the point whose row block is `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 5000, by omega⟩
  have ht' : win0_2.index t (0 : Fin 2) = (i 0).val / 5000 := ht
  obtain ⟨e0, e1, e2, e3, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region's grid has run is the host's product of the two input arrays as the region
    found them. -/
theorem final (c : Dev nD) :
    (dat0 (F := Ideal) V c).arrAt 2 cfg0.N
      = Host.dotGeneral (F := Ideal) (φ₁ := .f32) (φ₂ := .f32) Cert.ReferenceIdeal.dot_S100000x128_S128x128_S100000x128_1_0_0_1_n_n none
          (V c main_arg0) (V c main_arg3) :=
  (dat0 V c).arrAt_eq_of_cover 2 (product V c) (fun t _ => flushed_eq V c t) covered

end Cert.Bridge.Reg0

end
-- ==== Proof.Reg1.lean ====
/-
  Region 1: a matrix product tiled over its rows is the one product.

  The region's grid has 20 points. Point `t` takes rows `5000 t … 5000 t + 4999` of the `100000×128` left array and
  the whole `128×64` right array, multiplies them into a zero accumulator and writes the `5000×64` result to the
  same rows of the output array. The reshaping of the row block to its own shape is the identity, and the casts of
  both operands to a narrower float format are the identity on the extended reals, so entry `(p, q)` of what point `t`
  writes is `∑ k, A (5000 t + p, k) * W (k, q)`: entry `(5000 t + p, q)` of the one product `A · W`. The 20 row blocks
  cover the output array, so after the grid has run the output array is the host's product of the two input arrays as
  the region found them.
-/
import proofs.«124321_j44160853737915_1_alg».proof.Proof.Gen.KernelIdeal.Frame
import proofs.«124321_j44160853737915_1_alg».proof.Proof.Gen.ReferenceIdeal
import proofs.«124321_j44160853737915_1_alg».proof.Proof.LibRowBlock
import Idealize.ShloMosaic.Lib.Pipeline.Value
import Idealize.ShloMosaic.Lib.ValueIdx
import Idealize.ShloMosaic.PureOps.Ideal.Laws

noncomputable section

namespace Cert.Bridge.Reg1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zero_offsets : (![0, 0] : Fin 2 → Nat) = fun _ => 0 := funext fun a => by fin_cases a <;> rfl

/-- The whole product: the host's `dot_general` of the left and right arrays as the region finds them. -/
abbrev product (c : Dev nD) : S100000x64.Idx → Elt Ideal .f32 :=
  Host.dotGeneral (F := Ideal) (φ₁ := .f32) (φ₂ := .f32) Cert.ReferenceIdeal.dot_S100000x128_S128x64_S100000x64_1_0_0_1_n_n none
    (V c main_v47) (V c main_arg5)

/-- The block index maps over the grid: the left operand's row block moves with the output's, every other block
    index is zero, and the output's row block stays below 20. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every one of the 20 row blocks is some point's. -/
theorem block_onto : ∀ r : Fin 20, ∃ t : Fin cfg1.N, win1_2.index t (0 : Fin 2) = r.val :=
  (by decide +kernel : ∀ r : Fin 20, ∃ t : Fin grid1.N, win1_2.index t (0 : Fin 2) = r.val)

/-- Entry `(p, q)` of the body's result on a row block `x` and a right operand `w`: when row `p` of `x` is row `P` of
    `A` and column `q` of `w` is column `q` of `W`, it is entry `(P, q)` of the product `A · W` (the reshaping to the same
    shape and the two casts are the identity on the extended reals, and the block's product into the zero accumulator
    is the same sum term by term). -/
theorem payload_apply (A : FVec Ideal ⟨2, ![100000, 128]⟩ .f32) (W : FVec Ideal ⟨2, ![128, 64]⟩ .f32)
    (x : FVec Ideal ⟨2, ![5000, 128]⟩ .f32) (w : FVec Ideal ⟨2, ![128, 64]⟩ .f32)
    (P : Fin 100000) (p : Fin 5000) (q : Fin 64)
    (hx : ∀ k : Fin 128, (x (ix2 p k) : EReal) = A (ix2 P k)) (hw : ∀ k : Fin 128, (w (ix2 k q) : EReal) = W (ix2 k q)) :
    k1_pay1 (F := Ideal) x w (ix2 p q)
      = Host.dotGeneral (F := Ideal) Cert.ReferenceIdeal.dot_S100000x128_S128x64_S100000x64_1_0_0_1_n_n none A W (ix2 P q) := by
  unfold k1_pay1
  rw [shapeCast_self]
  exact Cert.Lib.RowBlock.matmul_eq_dotGeneral none none .single A W x w P p q hx hw

/-- What point `t` writes back is block `t` of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x64) zero_offsets]
  obtain ⟨e0, e1, e2, e3, e4, e5⟩ := block_indices t
  funext j
  obtain ⟨p, q, rfl⟩ : ∃ (p : Fin 5000) (q : Fin 64), j = ix2 p q := ⟨j 0, j 1, eq_ix2 j⟩
  have hp : p.val < 5000 := p.isLt
  have hrow : win1_2.index t (0 : Fin 2) * 5000 + p.val < 100000 := by omega
  show k1_pay1 (F := Ideal) (iblk1 V c 0 t) (iblk1 V c 1 t) (ix2 p q)
    = product V c (((cfg1.win 2).blk t).view.emb (ix2 p q))
  have hemb : ((cfg1.win 2).blk t).view.emb (ix2 p q)
      = (ix2 (⟨win1_2.index t (0 : Fin 2) * 5000 + p.val, hrow⟩ : Fin 100000) q : S100000x64.Idx) := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 64 + 1 * q.val = q.val; omega
  rw [hemb]
  refine payload_apply (V c main_v47) (V c main_arg5) _ _ ⟨_, hrow⟩ p q (fun k => ?_) (fun k => ?_)
  · show V c main_v47 (((cfg1.win 0).blk t).view.emb (ix2 p k))
      = V c main_v47 (ix2 (⟨win1_2.index t (0 : Fin 2) * 5000 + p.val, hrow⟩ : Fin 100000) k : S100000x128.Idx)
    refine congrArg _ (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 128 + 1 * k.val = k.val; omega
  · show V c main_arg5 (((cfg1.win 1).blk t).view.emb (ix2 k q)) = V c main_arg5 (ix2 k q : S128x64.Idx)
    refine congrArg _ (funext fun a => Fin.ext ?_)
    match a with
    | ⟨0, _⟩ => show win1_1.index t (0 : Fin 2) * 128 + 1 * k.val = k.val; omega
    | ⟨1, _⟩ => show win1_1.index t (1 : Fin 2) * 64 + 1 * q.val = q.val; omega

/-- An index of the output array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- The row blocks cover the output array: row `r` is in the block of the point whose row block is `r / 5000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := block_onto ⟨(i 0).val / 5000, by omega⟩
  have ht' : win1_2.index t (0 : Fin 2) = (i 0).val / 5000 := ht
  obtain ⟨e0, e1, e2, e3, e4, e5⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region's grid has run is the host's product of the two input arrays as the region
    found them. -/
theorem final (c : Dev nD) :
    (dat1 (F := Ideal) V c).arrAt 2 cfg1.N
      = Host.dotGeneral (F := Ideal) (φ₁ := .f32) (φ₂ := .f32) Cert.ReferenceIdeal.dot_S100000x128_S128x64_S100000x64_1_0_0_1_n_n none
          (V c main_v47) (V c main_arg5) :=
  (dat1 V c).arrAt_eq_of_cover 2 (product V c) (fun t _ => flushed_eq V c t) covered

end Cert.Bridge.Reg1

end
-- ==== Proof.Spec.lean ====
/-
  The pair decoder as one function of its six arrays, on the extended reals.

  For a pair `p` with embeddings `zs p`, `zd p` (64 entries each), the hidden unit `j` of 256 is
  `max (Σₖ zs·W₁[k,j] + Σₖ zd·W₁[64+k,j] + Σₖ (zs·zd)·W₁[128+k,j] + Σₖ |zs − zd|·W₁[192+k,j] + b₁[j]) 0`,
  the four sums taken over the four row groups of `W₁` in this order, and the logit is
  `Σⱼ hidden j · W₂[j] + b₂`. The zero is the f32 word 0x00000000.
-/
import Idealize.ShloMosaic.PureOps.Ideal
import Idealize.ShloMosaic.Lib.ValueIdx

noncomputable section

open scoped BigOperators

namespace Cert.Spec

open Idealize.ShloMosaic Idealize.ShloMosaic.TcCoe Idealize.ShloMosaic.ValueIdx

/-- Row `g·64 + k` of the 256 rows of `W₁`: entry `k` of row group `g`. -/
def rowOf (g : Fin 4) (k : Fin 64) : Fin 256 := ⟨g.val * 64 + k.val, by omega⟩

/-- Hidden unit `j` of pair `p`. -/
def hidden (zs zd : (⟨2, ![200000, 64]⟩ : Shape).Idx → Elt Ideal .f32) (w1 : (⟨2, ![256, 256]⟩ : Shape).Idx → Elt Ideal .f32)
    (b1 : (⟨2, ![1, 256]⟩ : Shape).Idx → Elt Ideal .f32) (p : Fin 200000) (j : Fin 256) : Elt Ideal .f32 :=
  max (((((∑ k : Fin 64, zs (ix2 p k) * w1 (ix2 (rowOf 0 k) j))
        + ∑ k : Fin 64, zd (ix2 p k) * w1 (ix2 (rowOf 1 k) j))
        + ∑ k : Fin 64, (zs (ix2 p k) * zd (ix2 p k)) * w1 (ix2 (rowOf 2 k) j))
        + ∑ k : Fin 64, (FloatOps.absf (F := Ideal) (φ := .f32) (zs (ix2 p k) - zd (ix2 p k)) : Elt Ideal .f32) * w1 (ix2 (rowOf 3 k) j))
        + b1 (ix2 0 j))
    (Ideal.ofBits .f32 0x00000000#32)

/-- The logits, one per pair, as a column. -/
def decoder (zs zd : (⟨2, ![200000, 64]⟩ : Shape).Idx → Elt Ideal .f32) (w1 : (⟨2, ![256, 256]⟩ : Shape).Idx → Elt Ideal .f32)
    (b1 : (⟨2, ![1, 256]⟩ : Shape).Idx → Elt Ideal .f32) (w2 : (⟨2, ![256, 1]⟩ : Shape).Idx → Elt Ideal .f32)
    (b2 : (⟨2, ![1, 1]⟩ : Shape).Idx → Elt Ideal .f32) : (⟨2, ![200000, 1]⟩ : Shape).Idx → Elt Ideal .f32 :=
  fun i => (∑ j : Fin 256, hidden zs zd w1 b1 (i 0) j * w2 (ix2 j 0)) + b2 (ix2 0 0)

end Cert.Spec

end
-- ==== Proof.LibRectLoad.lean ====
/-
  A load through a unit-stride rectangle, read at an index: entry y of the loaded box is the array's entry at
  offset + y, coordinate by coordinate.
-/
import Idealize.ShloMosaic.Lib.Pipeline.FrameBody

noncomputable section

namespace Idealize.ShloMosaic.View

/-- Entry `y` of a box loaded through the unit-stride rectangle at offsets `off` is the array at `k`, where `k` is
    `off + y` on every axis. -/
theorem ld_unit_at {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  refine congrArg X (funext fun a => Fin.ext ?_)
  show off a + 1 * (y a).val = (k a).val
  rw [hk a, Nat.one_mul]

end Idealize.ShloMosaic.View

end
-- ==== Proof.Reg2.lean ====
/-
  Region 2, the pair decoder, read as one function of its arrays, on the extended reals.

  The region runs over 50 grid points. Point `t` holds 4000 pairs: rows `index · 4000 … index · 4000 + 3999` of the
  two embedding arrays and of the logits' column; the weights and the biases are whole at every point. Per pair the
  body's arithmetic is the decoder's (`pay_apply`): the four matrix products of the source embedding, the destination
  embedding, their product and their absolute difference against the four row groups of `W₁`, added in this order,
  plus `b₁`, the maximum with zero, then the product with `W₂`, plus `b₂`. What each point writes back is its block of
  `Cert.Spec.decoder` of the six arrays (`flushed_eq`), the 50 blocks cover the 200000 rows (`cover`), so the logits'
  array after the region is the decoder of the six arrays as the region found them (`final`), whatever the buffers
  held when the region was entered.
-/
import proofs.«124321_j44160853737915_1_alg».proof.Proof.Gen.KernelIdeal.Frame
import proofs.«124321_j44160853737915_1_alg».proof.Proof.Spec
import proofs.«124321_j44160853737915_1_alg».proof.Proof.LibPlainDot
import proofs.«124321_j44160853737915_1_alg».proof.Proof.LibRectLoad
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.Reg2

open Cert.KernelIdeal Cert.KernelIdeal.Gen Idealize.ShloMosaic Idealize.ShloMosaic.TcCoe Idealize.SL.Sem Idealize.ShloMosaic.ValueIdx
open Idealize.ShloMosaic.Pipeline (Dat)

/-- The decoder's arithmetic at one pair. Block-local row `p` holds pair `q`: the two embedding rows are rows `q` of
    `zs` and `zd`, the four 64-row slices are the four row groups of `W1`, the bias rows, the output column and the
    output bias are those of `B1`, `W2`, `B2`. Then entry `p` of the body's result is the logit of pair `q`: each matrix
    product into the zero accumulator is a sum over its contraction index, the narrowing to bf16 and the casts to the
    same shape do nothing on the extended reals, and the pointwise operations read entry by entry. -/
theorem pay_apply
    (zs zd : (⟨2, ![200000, 64]⟩ : Shape).Idx → Elt Ideal .f32) (W1 : (⟨2, ![256, 256]⟩ : Shape).Idx → Elt Ideal .f32)
    (B1 : (⟨2, ![1, 256]⟩ : Shape).Idx → Elt Ideal .f32) (W2 : (⟨2, ![256, 1]⟩ : Shape).Idx → Elt Ideal .f32)
    (B2 : (⟨2, ![1, 1]⟩ : Shape).Idx → Elt Ideal .f32)
    (x0 x1 : Vec Ideal S4000x64 .f32) (a b c d : Vec Ideal S64x256 .f32) (b1 : Vec Ideal S1x256 .f32)
    (w2 : Vec Ideal S256x1 .f32) (b2 : Vec Ideal S1x1 .f32) (q : Fin 200000) (p : Fin 4000)
    (h0 : ∀ k : Fin 64, x0 (ix2 p k) = zs (ix2 q k)) (h1 : ∀ k : Fin 64, x1 (ix2 p k) = zd (ix2 q k))
    (ha : ∀ (k : Fin 64) (j : Fin 256), a (ix2 k j) = W1 (ix2 (Cert.Spec.rowOf 0 k) j))
    (hb : ∀ (k : Fin 64) (j : Fin 256), b (ix2 k j) = W1 (ix2 (Cert.Spec.rowOf 1 k) j))
    (hc : ∀ (k : Fin 64) (j : Fin 256), c (ix2 k j) = W1 (ix2 (Cert.Spec.rowOf 2 k) j))
    (hd : ∀ (k : Fin 64) (j : Fin 256), d (ix2 k j) = W1 (ix2 (Cert.Spec.rowOf 3 k) j))
    (hb1 : ∀ j : Fin 256, b1 (ix2 0 j) = B1 (ix2 0 j)) (hw2 : ∀ j : Fin 256, w2 (ix2 j 0) = W2 (ix2 j 0))
    (hb2 : b2 (ix2 0 0) = B2 (ix2 0 0)) :
    k2_pay1 (k2_pay2 x0 x1 a b c d b1 w2) b2 (ix2 p 0) = Cert.Spec.decoder zs zd W1 B1 W2 B2 (ix2 q 0) := by
  unfold k2_pay1 k2_pay2
  simp only [shapeCast_self]
  show _ = (∑ j : Fin 256, Cert.Spec.hidden zs zd W1 B1 q j * W2 (ix2 j 0)) + B2 (ix2 0 0)
  refine (addf_apply _ _ _).trans (congrArg₂ (· + ·) ?_ ?_)
  · -- the output column: a sum over the 256 hidden units
    refine (Cert.Lib.PlainDot.matmul_zero_apply none _ _ p 0).trans (Finset.sum_congr rfl fun j _ => ?_)
    refine congrArg₂ (· * ·) ?_ (hw2 j)
    -- hidden unit j: the maximum with the zero word
    unfold Cert.Spec.hidden
    refine (maximumf_apply _ _ (ix2 p j)).trans (congrArg₂ max ?_ rfl)
    refine (addf_apply _ _ _).trans (congrArg₂ (· + ·) ?_ ((broadcastTo_1b_ab_apply b1 _ p j).trans (hb1 j)))
    refine (addf_apply _ _ _).trans (congrArg₂ (· + ·) ?_ ?_)
    · refine (addf_apply _ _ _).trans (congrArg₂ (· + ·) ?_ ?_)
      · refine (addf_apply _ _ _).trans (congrArg₂ (· + ·) ?_ ?_)
        · exact (Cert.Lib.PlainDot.matmul_zero_apply none _ _ p j).trans
            (Finset.sum_congr rfl fun k _ => congrArg₂ (· * ·) (h0 k) (ha k j))
        · exact (Cert.Lib.PlainDot.matmul_zero_apply none _ _ p j).trans
            (Finset.sum_congr rfl fun k _ => congrArg₂ (· * ·) (h1 k) (hb k j))
      · exact (Cert.Lib.PlainDot.matmul_zero_apply none _ _ p j).trans
          (Finset.sum_congr rfl fun k _ => congrArg₂ (· * ·) (congrArg₂ (· * ·) (h0 k) (h1 k)) (hc k j))
    · exact (Cert.Lib.PlainDot.matmul_zero_apply none _ _ p j).trans
        (Finset.sum_congr rfl fun k _ => congrArg₂ (· * ·)
          (congrArg (FloatOps.absf (F := Ideal) (φ := .f32)) (congrArg₂ (· - ·) (h0 k) (h1 k))) (hd k j))
  · -- the output bias, one entry broadcast down the column
    exact (broadcastTo_1b_ab_apply b2 _ p 0).trans hb2

/-! ## From the blocks to the array -/

variable (V : (c : Dev nD) → (b : Ref sig .tc) → Buf (Elt Ideal) ((c : Thread nD τ).loc b))

/-- The zero offsets, as the constant function. -/
theorem offsets_zero : (![0, 0] : Fin 2 → Nat) = fun _ => 0 := funext fun a => by fin_cases a <;> rfl

/-- An index of a 4000-row column is its row. -/
theorem exists_row (j : (⟨2, ![4000, 1]⟩ : Shape).Idx) : ∃ p : Fin 4000, j = ix2 p 0 :=
  ⟨j 0, (eq_ix2 j).trans (congrArg (ix2 (j 0)) (Fin.ext (by
    show (j 1).val = 0
    have := idx2_lt1 j
    omega)))⟩

/-- The index maps, decided once over the 50 grid points: the two embedding windows move with the output window
    along the rows, at most 49 blocks down; no window moves along its columns; the four parameter windows do
    not move at all. -/
theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 49 ∧ win2_6.index t (1 : Fin 2) = 0 :=
  (by decide +kernel : ∀ t : Fin grid2.N, _)

/-- Every one of the 50 row blocks is some grid point's. -/
theorem index_onto : ∀ q : Fin 50, ∃ t : Fin cfg2.N, win2_6.index t = ![q.val, 0] :=
  (by decide +kernel : ∀ q : Fin 50, ∃ t : Fin grid2.N, win2_6.index t = ![q.val, 0])

/-- Row `p` of the source-embedding block at point `t` is row `index · 4000 + p` of the array. -/
theorem zs_block (c : Dev nD) (t : Fin cfg2.N) (p : Fin 4000) (k : Fin 64) (q : Fin 200000)
    (hq : q.val = win2_6.index t (0 : Fin 2) * 4000 + p.val) :
    (iblk2 (F := Ideal) V c 0 t : Vec Ideal S4000x64 .f32) (ix2 p k)
      = (V c main_v96 : S200000x64.Idx → Elt Ideal .f32) (ix2 q k) := by
  obtain ⟨e0, e1, -⟩ := index_facts t
  show V c main_v96 (((cfg2.win 0).blk t).view.emb (ix2 p k)) = V c main_v96 (ix2 q k)
  refine congrArg _ (funext fun a => Fin.ext ?_)
  match a with
  | ⟨0, _⟩ => show win2_0.index t (0 : Fin 2) * 4000 + 1 * p.val = q.val; omega
  | ⟨1, _⟩ => show win2_0.index t (1 : Fin 2) * 64 + 1 * k.val = k.val; omega

/-- Row `p` of the destination-embedding block at point `t` is row `index · 4000 + p` of the array. -/
theorem zd_block (c : Dev nD) (t : Fin cfg2.N) (p : Fin 4000) (k : Fin 64) (q : Fin 200000)
    (hq : q.val = win2_6.index t (0 : Fin 2) * 4000 + p.val) :
    (iblk2 (F := Ideal) V c 1 t : Vec Ideal S4000x64 .f32) (ix2 p k)
      = (V c main_v105 : S200000x64.Idx → Elt Ideal .f32) (ix2 q k) := by
  obtain ⟨-, -, e0, e1, -⟩ := index_facts t
  show V c main_v105 (((cfg2.win 1).blk t).view.emb (ix2 p k)) = V c main_v105 (ix2 q k)
  refine congrArg _ (funext fun a => Fin.ext ?_)
  match a with
  | ⟨0, _⟩ => show win2_1.index t (0 : Fin 2) * 4000 + 1 * p.val = q.val; omega
  | ⟨1, _⟩ => show win2_1.index t (1 : Fin 2) * 64 + 1 * k.val = k.val; omega

/-- The first-layer weights' window is the whole array at every point. -/
theorem w1_block (c : Dev nD) (t : Fin cfg2.N) (i : S256x256.Idx) :
    (iblk2 (F := Ideal) V c 2 t : Vec Ideal S256x256 .f32) i = (V c main_arg7 : S256x256.Idx → Elt Ideal .f32) i := by
  obtain ⟨-, -, -, -, e0, e1, -⟩ := index_facts t
  show V c main_arg7 (((cfg2.win 2).blk t).view.emb i) = V c main_arg7 i
  refine congrArg _ (funext fun a => Fin.ext ?_)
  match a with
  | ⟨0, _⟩ => show win2_2.index t (0 : Fin 2) * 256 + 1 * (i 0).val = (i 0).val; omega
  | ⟨1, _⟩ => show win2_2.index t (1 : Fin 2) * 256 + 1 * (i 1).val = (i 1).val; omega

/-- The first-layer bias row's window is the whole array at every point. -/
theorem b1_block (c : Dev nD) (t : Fin cfg2.N) (i : S1x256.Idx) :
    (iblk2 (F := Ideal) V c 3 t : Vec Ideal S1x256 .f32) i = (V c main_v106 : S1x256.Idx → Elt Ideal .f32) i := by
  obtain ⟨-, -, -, -, -, -, e0, e1, -⟩ := index_facts t
  show V c main_v106 (((cfg2.win 3).blk t).view.emb i) = V c main_v106 i
  refine congrArg _ (funext fun a => Fin.ext ?_)
  match a with
  | ⟨0, _⟩ => show win2_3.index t (0 : Fin 2) * 1 + 1 * (i 0).val = (i 0).val; omega
  | ⟨1, _⟩ => show win2_3.index t (1 : Fin 2) * 256 + 1 * (i 1).val = (i 1).val; omega

/-- The output column's window is the whole array at every point. -/
theorem w2_block (c : Dev nD) (t : Fin cfg2.N) (i : S256x1.Idx) :
    (iblk2 (F := Ideal) V c 4 t : Vec Ideal S256x1 .f32) i = (V c main_arg9 : S256x1.Idx → Elt Ideal .f32) i := by
  obtain ⟨-, -, -, -, -, -, -, -, e0, e1, -⟩ := index_facts t
  show V c main_arg9 (((cfg2.win 4).blk t).view.emb i) = V c main_arg9 i
  refine congrArg _ (funext fun a => Fin.ext ?_)
  match a with
  | ⟨0, _⟩ => show win2_4.index t (0 : Fin 2) * 256 + 1 * (i 0).val = (i 0).val; omega
  | ⟨1, _⟩ => show win2_4.index t (1 : Fin 2) * 1 + 1 * (i 1).val = (i 1).val; omega

/-- The output bias's window is the whole array at every point. -/
theorem b2_block (c : Dev nD) (t : Fin cfg2.N) (i : S1x1.Idx) :
    (iblk2 (F := Ideal) V c 5 t : Vec Ideal S1x1 .f32) i = (V c main_v107 : S1x1.Idx → Elt Ideal .f32) i := by
  obtain ⟨-, -, -, -, -, -, -, -, -, -, e0, e1, -⟩ := index_facts t
  show V c main_v107 (((cfg2.win 5).blk t).view.emb i) = V c main_v107 i
  refine congrArg _ (funext fun a => Fin.ext ?_)
  match a with
  | ⟨0, _⟩ => show win2_5.index t (0 : Fin 2) * 1 + 1 * (i 0).val = (i 0).val; omega
  | ⟨1, _⟩ => show win2_5.index t (1 : Fin 2) * 1 + 1 * (i 1).val = (i 1).val; omega

/-- Entry `(k, j)` of the 64-row slice of the first-layer weights loaded at row offset `g · 64` is entry
    `(g · 64 + k, j)` of the array: row `k` of row group `g`. -/
theorem w1_slice (c : Dev nD) (t : Fin cfg2.N) (g : Fin 4) (off : Fin 2 → Nat) (inb : ∀ a, off a + S64x256.size a ≤ S256x256.size a)
    (h0 : off 0 = g.val * 64) (h1 : off 1 = 0) (k : Fin 64) (j : Fin 256) :
    View.ld (iblk2 (F := Ideal) V c 2 t : Vec Ideal S256x256 .f32) (Rect.unit (s := S256x256) off S64x256.size inb) (ix2 k j)
      = (V c main_arg7 : S256x256.Idx → Elt Ideal .f32) (ix2 (Cert.Spec.rowOf g k) j) := by
  refine (View.ld_unit_at (S := S256x256) (iblk2 (F := Ideal) V c 2 t : Vec Ideal S256x256 .f32) off S64x256.size inb (ix2 k j)
    (ix2 (Cert.Spec.rowOf g k) j) fun a => ?_).trans (w1_block V c t _)
  match a with
  | ⟨0, _⟩ => show g.val * 64 + k.val = off 0 + k.val; omega
  | ⟨1, _⟩ => show j.val = off 1 + j.val; omega

/-- WHAT POINT `t` WRITES BACK is block `t` of the decoder of the six arrays as the region finds them. -/
theorem flushed_eq (c : Dev nD) (t : Fin cfg2.N) :
    (dat2 (F := Ideal) V c).flushed 6 t = ((cfg2.win 6).blk t).view.read (Elt Ideal)
      (Cert.Spec.decoder (V c main_v96) (V c main_v105) (V c main_arg7) (V c main_v106) (V c main_arg9) (V c main_v107)) := by
  show (cfg2.win 6).cut (grid2.coords t) ((dat2 V c).after 6 t) = _
  rw [after2_6]
  unfold out2_6
  rw [View.canon_unit_zero offsets_zero]
  refine funext fun (j : S4000x1.Idx) => ?_
  obtain ⟨p, rfl⟩ := exists_row j
  obtain ⟨-, -, -, -, -, -, -, -, -, -, -, -, hle, e1⟩ := index_facts t
  have hp := p.isLt
  refine (pay_apply (V c main_v96) (V c main_v105) (V c main_arg7) (V c main_v106) (V c main_arg9) (V c main_v107)
    _ _ _ _ _ _ _ _ _ ⟨win2_6.index t (0 : Fin 2) * 4000 + p.val, by omega⟩ p ?_ ?_ ?_ ?_ ?_ ?_ ?_ ?_ ?_).trans ?_
  · exact fun k => (congrFun (View.ld_unit_zero (S := S4000x64) offsets_zero _ _) _).trans (zs_block V c t p k _ rfl)
  · exact fun k => (congrFun (View.ld_unit_zero (S := S4000x64) offsets_zero _ _) _).trans (zd_block V c t p k _ rfl)
  · exact fun k j => w1_slice V c t 0 _ _ rfl rfl k j
  · exact fun k j => w1_slice V c t 1 _ _ rfl rfl k j
  · exact fun k j => w1_slice V c t 2 _ _ rfl rfl k j
  · exact fun k j => w1_slice V c t 3 _ _ rfl rfl k j
  · exact fun j => (congrFun (View.ld_unit_zero (S := S1x256) offsets_zero _ _) _).trans (b1_block V c t _)
  · exact fun j => (congrFun (View.ld_unit_zero (S := S256x1) offsets_zero _ _) _).trans (w2_block V c t _)
  · exact (congrFun (View.ld_unit_zero (S := S1x1) offsets_zero _ _) _).trans (b2_block V c t _)
  · show Cert.Spec.decoder _ _ _ _ _ _ _ = Cert.Spec.decoder _ _ _ _ _ _ (((cfg2.win 6).blk t).view.emb (ix2 p 0))
    refine congrArg _ (funext fun a => Fin.ext ?_).symm
    match a with
    | ⟨0, _⟩ => show win2_6.index t (0 : Fin 2) * 4000 + 1 * p.val = win2_6.index t (0 : Fin 2) * 4000 + p.val; omega
    | ⟨1, _⟩ => show win2_6.index t (1 : Fin 2) * 1 + 1 * 0 = 0; omega

/-- An index of the logits' array is in point `t`'s block iff each coordinate is in the block's range on its axis. -/
theorem mem_blk (t : Fin cfg2.N) (i : S200000x1.Idx) :
    i ∈ ((cfg2.win 6).blk t).view.set ↔ ∀ a : Fin 2, win2_6.index t a * S4000x1.size a ≤ (i a).val ∧ (i a).val < win2_6.index t a * S4000x1.size a + S4000x1.size a := by
  show i ∈ ((View.whole main_v108).slice (win2_6.rect t)).set ↔ _
  rw [View.set_slice_whole, Rect.mem_set_unit]
  exact Iff.rfl

/-- Every pair's row is in some writing point's block: row `r` in the block with index `r / 4000`. -/
theorem cover (i : S200000x1.Idx) :
    ∃ t : Fin cfg2.N, (cfg2.win 6).flush t = true ∧ i ∈ ((cfg2.win 6).blk t).view.set := by
  have hi0 : (i 0).val < 200000 := (i 0).isLt
  have hi1 : (i 1).val < 1 := (i 1).isLt
  obtain ⟨t, ht⟩ := index_onto ⟨(i 0).val / 4000, by omega⟩
  have q0 : win2_6.index t (0 : Fin 2) = (i 0).val / 4000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 1 ≤ (i 1).val ∧ (i 1).val < win2_6.index t (1 : Fin 2) * 1 + 1; omega

/-- THE ARRAY after region 2: the decoder of the six input arrays as the region found them. -/
theorem final (c : Dev nD) :
    (dat2 (F := Ideal) V c).arrAt 6 cfg2.N
      = Cert.Spec.decoder (V c main_v96) (V c main_v105) (V c main_arg7) (V c main_v106) (V c main_arg9) (V c main_v107) :=
  (dat2 V c).arrAt_eq_of_cover 6 _ (fun t _ => flushed_eq V c t) cover

end Cert.Bridge.Reg2
end
-- ==== Proof.HostA.lean ====
/-
  The host stretches of the idealized kernel program, read as the reference's stages.

  Between its three kernel regions the kernel program applies to its buffers the very host operations the reference
  applies (degree by scatter-add of ones, d^(-1/2) where the degree is positive, the per-edge coefficient, the gather of
  source rows, the scatter-add into destination rows, the bias, the relu; then the gathers of the pairs' rows). Each
  stretch is read here from ARBITRARY contents `Wv` at its entry: if the buffers it reads hold the reference's stages,
  the buffers it writes hold the reference's later stages (`val_…` of the reference read one operation at a time), and
  what it does not write it leaves as it was.

  A stretch is several lists of operations in a row. Each list is read on its own from arbitrary contents `U` — its
  results as the reference's stages of the values it finds — and the stretch is their composition. The two outlined
  functions' lists move contents along "the reference's type is the tensor's type"; at literal references that is the
  identity, so each such list is first restated over the references themselves (`where0_plain`, `relu1_plain`,
  `where2_plain`), and only then read against the reference's stages.
-/
import proofs.«124321_j44160853737915_1_alg».proof.Proof.Gen.KernelIdeal.Launch
import proofs.«124321_j44160853737915_1_alg».proof.Proof.RefRead
import Idealize.ShloMosaic.Lib.StableHlo.Run
import Idealize.ShloMosaic.PureOps.Ideal.Laws

set_option maxRecDepth 16384

noncomputable section

namespace Cert.Bridge.Host

open Cert.KernelIdeal Cert.KernelIdeal.Gen Idealize.ShloMosaic Idealize.ShloMosaic.TcCoe Idealize.SL.Sem Idealize.ShloMosaic.StableHlo
open Cert.ReferenceIdeal.ReadP

variable (Wv : Valuation τ sig (Elt Ideal))

/-- The second stretch of host operations: everything between the first and the second kernel region. -/
abbrev stretch1 (Wv : Valuation τ sig (Elt Ideal)) : Valuation τ sig (Elt Ideal) :=
  StableHlo.after hostOps1_3 (StableHlo.after hostOps1_2 (StableHlo.after hostOps1_1 (StableHlo.after hostOps1 Wv)))

/-- The third stretch of host operations: everything between the second and the third kernel region. -/
abbrev stretch2 (Wv : Valuation τ sig (Elt Ideal)) : Valuation τ sig (Elt Ideal) :=
  StableHlo.after hostOps2_2 (StableHlo.after hostOps2_1 (StableHlo.after hostOps2 Wv))

/-! ## The first stretch: the edge lists -/

/-- The first stretch: the source node of every edge, self loops appended … -/
theorem stretch0_src (x1 : (⟨Cert.ReferenceIdeal.S2x1600000, .i32⟩ : BufTy).Contents (Elt Ideal)) (h1 : Wv (Proc.devRef .tc main_arg1) = x1) :
    StableHlo.after hostOps0 Wv (Proc.devRef .tc main_v3) = val_main_v3 (F := Ideal) x1 := by
  subst h1
  after_results
  rfl

/-- … and the destination node. -/
theorem stretch0_dst (x1 : (⟨Cert.ReferenceIdeal.S2x1600000, .i32⟩ : BufTy).Contents (Elt Ideal)) (h1 : Wv (Proc.devRef .tc main_arg1) = x1) :
    StableHlo.after hostOps0 Wv (Proc.devRef .tc main_v6) = val_main_v6 (F := Ideal) x1 := by
  subst h1
  after_results
  rfl

/-! ## What a stretch does not write it leaves as it was

No operation of the first stretch writes an argument other than through its own results; likewise the later
stretches leave the edge lists, the remaining arguments and the decoder's parameters alone. -/

theorem stretch0_keep_arg0 : StableHlo.after hostOps0 Wv (Proc.devRef .tc main_arg0) = Wv (Proc.devRef .tc main_arg0) := by
  after_results_simp
theorem stretch0_keep_arg2 : StableHlo.after hostOps0 Wv (Proc.devRef .tc main_arg2) = Wv (Proc.devRef .tc main_arg2) := by
  after_results_simp
theorem stretch0_keep_arg3 : StableHlo.after hostOps0 Wv (Proc.devRef .tc main_arg3) = Wv (Proc.devRef .tc main_arg3) := by
  after_results_simp
theorem stretch0_keep_arg4 : StableHlo.after hostOps0 Wv (Proc.devRef .tc main_arg4) = Wv (Proc.devRef .tc main_arg4) := by
  after_results_simp
theorem stretch0_keep_arg5 : StableHlo.after hostOps0 Wv (Proc.devRef .tc main_arg5) = Wv (Proc.devRef .tc main_arg5) := by
  after_results_simp
theorem stretch0_keep_arg6 : StableHlo.after hostOps0 Wv (Proc.devRef .tc main_arg6) = Wv (Proc.devRef .tc main_arg6) := by
  after_results_simp
theorem stretch0_keep_arg7 : StableHlo.after hostOps0 Wv (Proc.devRef .tc main_arg7) = Wv (Proc.devRef .tc main_arg7) := by
  after_results_simp
theorem stretch0_keep_arg8 : StableHlo.after hostOps0 Wv (Proc.devRef .tc main_arg8) = Wv (Proc.devRef .tc main_arg8) := by
  after_results_simp
theorem stretch0_keep_arg9 : StableHlo.after hostOps0 Wv (Proc.devRef .tc main_arg9) = Wv (Proc.devRef .tc main_arg9) := by
  after_results_simp
theorem stretch0_keep_arg10 : StableHlo.after hostOps0 Wv (Proc.devRef .tc main_arg10) = Wv (Proc.devRef .tc main_arg10) := by
  after_results_simp

theorem stretch1_keep_v3 : stretch1 Wv (Proc.devRef .tc main_v3) = Wv (Proc.devRef .tc main_v3) := by
  after_results_simp
theorem stretch1_keep_v6 : stretch1 Wv (Proc.devRef .tc main_v6) = Wv (Proc.devRef .tc main_v6) := by
  after_results_simp
theorem stretch1_keep_arg2 : stretch1 Wv (Proc.devRef .tc main_arg2) = Wv (Proc.devRef .tc main_arg2) := by
  after_results_simp
theorem stretch1_keep_arg5 : stretch1 Wv (Proc.devRef .tc main_arg5) = Wv (Proc.devRef .tc main_arg5) := by
  after_results_simp
theorem stretch1_keep_arg6 : stretch1 Wv (Proc.devRef .tc main_arg6) = Wv (Proc.devRef .tc main_arg6) := by
  after_results_simp
theorem stretch1_keep_arg7 : stretch1 Wv (Proc.devRef .tc main_arg7) = Wv (Proc.devRef .tc main_arg7) := by
  after_results_simp
theorem stretch1_keep_arg8 : stretch1 Wv (Proc.devRef .tc main_arg8) = Wv (Proc.devRef .tc main_arg8) := by
  after_results_simp
theorem stretch1_keep_arg9 : stretch1 Wv (Proc.devRef .tc main_arg9) = Wv (Proc.devRef .tc main_arg9) := by
  after_results_simp
theorem stretch1_keep_arg10 : stretch1 Wv (Proc.devRef .tc main_arg10) = Wv (Proc.devRef .tc main_arg10) := by
  after_results_simp

theorem stretch2_keep_arg7 : stretch2 Wv (Proc.devRef .tc main_arg7) = Wv (Proc.devRef .tc main_arg7) := by
  after_results_simp
theorem stretch2_keep_arg9 : stretch2 Wv (Proc.devRef .tc main_arg9) = Wv (Proc.devRef .tc main_arg9) := by
  after_results_simp

/-! ## The outlined functions' operations without their casts

An outlined function's operations are stated over references that carry their tensor types, and move contents along
the equation "the reference's type is that type". At these literal references the equation holds by computation, so
each such list IS the list of the same operations stated at the references themselves. -/

theorem where0_plain : (hostOps1_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v13 main_v14 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

theorem relu1_plain : (hostOps1_3 : List (HloOp τ sig (Elt Ideal))) =
    [ StableHlo.nullary main_call1_cst (constant (F := Ideal) S_ .f32 0x00000000#32 : (⟨S_, .f32⟩ : BufTy).Contents (Elt Ideal)),
      StableHlo.unary main_call1_cst main_call1_v0 (broadcastInDim S100000x128 ![] bcast_S_S100000x128 : (⟨S_, .f32⟩ : BufTy).Contents (Elt Ideal) → (⟨S100000x128, .f32⟩ : BufTy).Contents (Elt Ideal)),
      StableHlo.binary main_v46 main_call1_v0 main_v47 (maximumf (F := Ideal) (s := S100000x128) (φ := .f32) : (⟨S100000x128, .f32⟩ : BufTy).Contents (Elt Ideal) → (⟨S100000x128, .f32⟩ : BufTy).Contents (Elt Ideal) → (⟨S100000x128, .f32⟩ : BufTy).Contents (Elt Ideal)) ] := rfl

theorem where2_plain : (hostOps2_1 : List (HloOp τ sig (Elt Ideal))) =
    [ StableHlo.unary main_cst_12 main_call2_v0 (id : (⟨S_, .f32⟩ : BufTy).Contents (Elt Ideal) → (⟨S_, .f32⟩ : BufTy).Contents (Elt Ideal)),
      StableHlo.unary main_call2_v0 main_call2_v1 (broadcastInDim S100000 ![] bcast_S_S100000 : (⟨S_, .f32⟩ : BufTy).Contents (Elt Ideal) → (⟨S100000, .f32⟩ : BufTy).Contents (Elt Ideal)),
      StableHlo.ternary main_v54 main_v55 main_call2_v1 main_v56 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-! ## The second stretch, one list of operations at a time, from arbitrary contents `U` -/

section Stretch1
variable (U : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal))

/-- Where the degree is positive … -/
theorem degree_pos (h6 : U (Proc.devRef .tc main_v6) = val_main_v6 (F := Ideal) x1) :
    StableHlo.after hostOps1 U (Proc.devRef .tc main_v13) = val_main_v13 (F := Ideal) x1 := by
  after_results_simp
  rw [h6]
  rfl

/-- … its inverse square root … -/
theorem degree_rsqrt (h6 : U (Proc.devRef .tc main_v6) = val_main_v6 (F := Ideal) x1) :
    StableHlo.after hostOps1 U (Proc.devRef .tc main_v14) = val_main_v14 (F := Ideal) x1 := by
  after_results_simp
  rw [h6]
  rfl

/-- … and the zero it is replaced by elsewhere. -/
theorem degree_zero : StableHlo.after hostOps1 U (Proc.devRef .tc main_cst_2) = val_main_cst_2 (F := Ideal) := by
  after_results_simp
  rfl

/-- The normalizing coefficient of a node: the inverse square root of its degree where that is positive, zero elsewhere. -/
theorem node_coeff (h13 : U (Proc.devRef .tc main_v13) = val_main_v13 (F := Ideal) x1)
    (h14 : U (Proc.devRef .tc main_v14) = val_main_v14 (F := Ideal) x1)
    (hc : U (Proc.devRef .tc main_cst_2) = val_main_cst_2 (F := Ideal)) :
    StableHlo.after hostOps1_1 U (Proc.devRef .tc main_v15) = val_main_v15 (F := Ideal) x1 := by
  rw [where0_plain]
  after_results_simp
  rw [h13, h14, hc]
  rfl

/-- The aggregation and the bias: per edge the product of its two nodes' coefficients, the gather of the source
    rows of `x0 · W₀`, their scatter-add into the destination rows, plus the bias row. -/
theorem layer1_sum (h15 : U (Proc.devRef .tc main_v15) = val_main_v15 (F := Ideal) x1)
    (h7 : U (Proc.devRef .tc main_v7) = val_main_v7 (F := Ideal) x0 x3)
    (h3 : U (Proc.devRef .tc main_v3) = val_main_v3 (F := Ideal) x1)
    (h6 : U (Proc.devRef .tc main_v6) = val_main_v6 (F := Ideal) x1)
    (h4 : U (Proc.devRef .tc main_arg4) = x4) :
    StableHlo.after hostOps1_2 U (Proc.devRef .tc main_v46) = val_main_v46 (F := Ideal) x0 x1 x3 x4 := by
  after_results_simp
  rw [h15, h7, h3, h6, h4]
  rfl

/-- The maximum with zero. -/
theorem layer1_relu (h46 : U (Proc.devRef .tc main_v46) = val_main_v46 (F := Ideal) x0 x1 x3 x4) :
    StableHlo.after hostOps1_3 U (Proc.devRef .tc main_v47) = val_main_v47 (F := Ideal) x0 x1 x3 x4 := by
  rw [relu1_plain]
  after_results_simp
  rw [h46]
  rfl

end Stretch1

/-- From the first region's product `x0 · W₀` and the edge lists, the second stretch leaves the first layer's
    activations: the four lists above in order, each reading what the one before left and what none of them writes. -/
theorem stretch1_h (x0 : (⟨Cert.ReferenceIdeal.S100000x128, .f32⟩ : BufTy).Contents (Elt Ideal)) (x1 : (⟨Cert.ReferenceIdeal.S2x1600000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal))
    (h7 : Wv (Proc.devRef .tc main_v7) = val_main_v7 (F := Ideal) x0 x3)
    (h3 : Wv (Proc.devRef .tc main_v3) = val_main_v3 (F := Ideal) x1)
    (h6 : Wv (Proc.devRef .tc main_v6) = val_main_v6 (F := Ideal) x1)
    (h4 : Wv (Proc.devRef .tc main_arg4) = x4) :
    stretch1 Wv (Proc.devRef .tc main_v47) = val_main_v47 (F := Ideal) x0 x1 x3 x4 := by
  refine layer1_relu _ x0 x1 x3 x4 (layer1_sum _ x0 x1 x3 x4 ?_ ?_ ?_ ?_ ?_)
  · exact node_coeff _ x1 (degree_pos Wv x1 h6) (degree_rsqrt Wv x1 h6) (degree_zero Wv)
  · refine Eq.trans ?_ h7; after_results_simp
  · refine Eq.trans ?_ h3; after_results_simp
  · refine Eq.trans ?_ h6; after_results_simp
  · refine Eq.trans ?_ h4; after_results_simp

/-! ## The third stretch, one list of operations at a time, from arbitrary contents `U` -/

section Stretch2
variable (U : Valuation τ sig (Elt Ideal))
variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S2x200000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal))

/-- The degrees again: where positive … -/
theorem degree2_pos (h6 : U (Proc.devRef .tc main_v6) = val_main_v6 (F := Ideal) x1) :
    StableHlo.after hostOps2 U (Proc.devRef .tc main_v54) = val_main_v54 (F := Ideal) x1 := by
  after_results_simp
  rw [h6]
  rfl

/-- … the inverse square root … -/
theorem degree2_rsqrt (h6 : U (Proc.devRef .tc main_v6) = val_main_v6 (F := Ideal) x1) :
    StableHlo.after hostOps2 U (Proc.devRef .tc main_v55) = val_main_v55 (F := Ideal) x1 := by
  after_results_simp
  rw [h6]
  rfl

/-- … and the zero. -/
theorem degree2_zero : StableHlo.after hostOps2 U (Proc.devRef .tc main_cst_12) = val_main_cst_12 (F := Ideal) := by
  after_results_simp
  rfl

/-- The normalizing coefficient of a node, as before. -/
theorem node_coeff2 (h54 : U (Proc.devRef .tc main_v54) = val_main_v54 (F := Ideal) x1)
    (h55 : U (Proc.devRef .tc main_v55) = val_main_v55 (F := Ideal) x1)
    (hc : U (Proc.devRef .tc main_cst_12) = val_main_cst_12 (F := Ideal)) :
    StableHlo.after hostOps2_1 U (Proc.devRef .tc main_v56) = val_main_v56 (F := Ideal) x1 := by
  rw [where2_plain]
  after_results_simp
  rw [h54, h55, hc]
  rfl

/-- The second layer's aggregation and bias, then the rows of the pairs' source nodes … -/
theorem pair_src_rows (h56 : U (Proc.devRef .tc main_v56) = val_main_v56 (F := Ideal) x1)
    (h48 : U (Proc.devRef .tc main_v48) = val_main_v48 (F := Ideal) x0 x1 x3 x4 x5)
    (h3 : U (Proc.devRef .tc main_v3) = val_main_v3 (F := Ideal) x1)
    (h6 : U (Proc.devRef .tc main_v6) = val_main_v6 (F := Ideal) x1)
    (ha6 : U (Proc.devRef .tc main_arg6) = x6) (ha2 : U (Proc.devRef .tc main_arg2) = x2) :
    StableHlo.after hostOps2_2 U (Proc.devRef .tc main_v96) = val_main_v96 (F := Ideal) x0 x1 x2 x3 x4 x5 x6 := by
  after_results_simp
  rw [h56, h48, h3, h6, ha6, ha2]
  rfl

/-- … and of their destination nodes. -/
theorem pair_dst_rows (h56 : U (Proc.devRef .tc main_v56) = val_main_v56 (F := Ideal) x1)
    (h48 : U (Proc.devRef .tc main_v48) = val_main_v48 (F := Ideal) x0 x1 x3 x4 x5)
    (h3 : U (Proc.devRef .tc main_v3) = val_main_v3 (F := Ideal) x1)
    (h6 : U (Proc.devRef .tc main_v6) = val_main_v6 (F := Ideal) x1)
    (ha6 : U (Proc.devRef .tc main_arg6) = x6) (ha2 : U (Proc.devRef .tc main_arg2) = x2) :
    StableHlo.after hostOps2_2 U (Proc.devRef .tc main_v105) = val_main_v105 (F := Ideal) x0 x1 x2 x3 x4 x5 x6 := by
  after_results_simp
  rw [h56, h48, h3, h6, ha6, ha2]
  rfl

end Stretch2

/-- From the second region's product `h · W₁`, the edge lists, the second bias and the pairs, the third stretch
    leaves the second layer's embeddings gathered at the pairs' source nodes … -/
theorem stretch2_zs (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S2x200000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal))
    (h48 : Wv (Proc.devRef .tc main_v48) = val_main_v48 (F := Ideal) x0 x1 x3 x4 x5)
    (h3 : Wv (Proc.devRef .tc main_v3) = val_main_v3 (F := Ideal) x1)
    (h6 : Wv (Proc.devRef .tc main_v6) = val_main_v6 (F := Ideal) x1)
    (ha6 : Wv (Proc.devRef .tc main_arg6) = x6) (ha2 : Wv (Proc.devRef .tc main_arg2) = x2) :
    stretch2 Wv (Proc.devRef .tc main_v96) = val_main_v96 (F := Ideal) x0 x1 x2 x3 x4 x5 x6 := by
  refine pair_src_rows _ x0 x1 x2 x3 x4 x5 x6 ?_ ?_ ?_ ?_ ?_ ?_
  · exact node_coeff2 _ x1 (degree2_pos Wv x1 h6) (degree2_rsqrt Wv x1 h6) (degree2_zero Wv)
  · refine Eq.trans ?_ h48; after_results_simp
  · refine Eq.trans ?_ h3; after_results_simp
  · refine Eq.trans ?_ h6; after_results_simp
  · refine Eq.trans ?_ ha6; after_results_simp
  · refine Eq.trans ?_ ha2; after_results_simp

/-- … and at their destination nodes. -/
theorem stretch2_zd (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S2x200000, .i32⟩ : BufTy).Contents (Elt Ideal))
    (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal))
    (h48 : Wv (Proc.devRef .tc main_v48) = val_main_v48 (F := Ideal) x0 x1 x3 x4 x5)
    (h3 : Wv (Proc.devRef .tc main_v3) = val_main_v3 (F := Ideal) x1)
    (h6 : Wv (Proc.devRef .tc main_v6) = val_main_v6 (F := Ideal) x1)
    (ha6 : Wv (Proc.devRef .tc main_arg6) = x6) (ha2 : Wv (Proc.devRef .tc main_arg2) = x2) :
    stretch2 Wv (Proc.devRef .tc main_v105) = val_main_v105 (F := Ideal) x0 x1 x2 x3 x4 x5 x6 := by
  refine pair_dst_rows _ x0 x1 x2 x3 x4 x5 x6 ?_ ?_ ?_ ?_ ?_ ?_
  · exact node_coeff2 _ x1 (degree2_pos Wv x1 h6) (degree2_rsqrt Wv x1 h6) (degree2_zero Wv)
  · refine Eq.trans ?_ h48; after_results_simp
  · refine Eq.trans ?_ h3; after_results_simp
  · refine Eq.trans ?_ h6; after_results_simp
  · refine Eq.trans ?_ ha6; after_results_simp
  · refine Eq.trans ?_ ha2; after_results_simp

/-! ## The decoder's two biases, and the logits as a vector -/

/-- The third stretch also lays the first-layer bias out as one row. -/
theorem stretch2_b1 (x8 : (⟨S256, .f32⟩ : BufTy).Contents (Elt Ideal)) (h8 : Wv (Proc.devRef .tc main_arg8) = x8) :
    stretch2 Wv (Proc.devRef .tc main_v106) = shapeCast S1x256 x8 shapeCasts_S256_S1x256 := by
  subst h8
  after_results_simp
  rfl

/-- … and the output bias as a one-by-one array. -/
theorem stretch2_b2 (x10 : (⟨S1, .f32⟩ : BufTy).Contents (Elt Ideal)) (h10 : Wv (Proc.devRef .tc main_arg10) = x10) :
    stretch2 Wv (Proc.devRef .tc main_v107) = shapeCast S1x1 x10 shapeCasts_S1_S1x1 := by
  subst h10
  after_results_simp
  rfl

/-- The last stretch reads the logits' column as a vector. -/
theorem stretch3 : StableHlo.after hostOps3 Wv (Proc.devRef .tc main_v109)
    = shapeCast S200000 (Wv (Proc.devRef .tc main_v108)) shapeCasts_S200000x1_S200000 := by
  after_results
  rfl

end Cert.Bridge.Host

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.RefDec.lean ====
/-
  The reference's pair decoder, read index by index.

  The reference concatenates, for each pair `p`, the four 64-entry rows `zs p`, `zd p`, `zs p * zd p` and `|zs p − zd p|`
  into one row of 256 entries, multiplies it by the `256×256` array `W₁`, adds the bias `b₁` to every row, takes the
  maximum with zero, multiplies by the `256×1` array `W₂` and adds the bias `b₂`. Column `g·64 + k` of the concatenated
  row is entry `k` of piece `g`, so the sum over the 256 columns is the sum over the four pieces of the sums over their 64
  entries, in the pieces' order: the hidden unit of the decoder's closed form. Addition on the extended reals is
  associative and commutative, so no entry need be finite. A bias broadcast along the pairs is the bias reshaped to a
  one-row array and read at row zero.
-/
import proofs.«124321_j44160853737915_1_alg».proof.Proof.RefRead
import proofs.«124321_j44160853737915_1_alg».proof.Proof.LibBlockSum
import proofs.«124321_j44160853737915_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge.RefDec

open Cert.ReferenceIdeal Cert.ReferenceIdeal.ReadP Idealize.ShloMosaic Idealize.ShloMosaic.TcCoe Idealize.ShloMosaic.ValueIdx

/-- A sum over the 256 columns is the sum over the four groups of 64 consecutive columns, in the groups' order. -/
theorem sum_groups (H : Fin 256 → EReal) :
    ∑ r : Fin 256, H r
      = (((∑ k : Fin 64, H (Cert.Spec.rowOf 0 k)) + ∑ k : Fin 64, H (Cert.Spec.rowOf 1 k))
          + ∑ k : Fin 64, H (Cert.Spec.rowOf 2 k)) + ∑ k : Fin 64, H (Cert.Spec.rowOf 3 k) := by
  refine (Cert.Lib.BlockSum.sum_blocks 4 64 H).trans ?_
  rw [Fin.sum_univ_four]
  rfl

/-- Four arrays of 64 columns, each with its shape: the pieces of a concatenation along the columns. -/
abbrev pieces (y0 y1 y2 y3 : (⟨2, ![200000, 64]⟩ : Shape).Idx → EReal) : List ((s : Shape) × (s.Idx → EReal)) :=
  [⟨⟨2, ![200000, 64]⟩, y0⟩, ⟨⟨2, ![200000, 64]⟩, y1⟩, ⟨⟨2, ![200000, 64]⟩, y2⟩, ⟨⟨2, ![200000, 64]⟩, y3⟩]

/-- Four arrays of 64 columns concatenated along the columns, read at column `g·64 + k`: piece `g` at column `k`. -/
theorem concat_apply (y0 y1 y2 y3 : (⟨2, ![200000, 64]⟩ : Shape).Idx → EReal)
    (h : Shape.Concatenates ((pieces y0 y1 y2 y3).map (·.1)) ⟨2, ![200000, 256]⟩ 1)
    (p : Fin 200000) (k : Fin 64) :
    concatenate ⟨2, ![200000, 256]⟩ 1 (pieces y0 y1 y2 y3) h (ix2 p (Cert.Spec.rowOf 0 k)) = y0 (ix2 p k)
    ∧ concatenate ⟨2, ![200000, 256]⟩ 1 (pieces y0 y1 y2 y3) h (ix2 p (Cert.Spec.rowOf 1 k)) = y1 (ix2 p k)
    ∧ concatenate ⟨2, ![200000, 256]⟩ 1 (pieces y0 y1 y2 y3) h (ix2 p (Cert.Spec.rowOf 2 k)) = y2 (ix2 p k)
    ∧ concatenate ⟨2, ![200000, 256]⟩ 1 (pieces y0 y1 y2 y3) h (ix2 p (Cert.Spec.rowOf 3 k)) = y3 (ix2 p k) := by
  have hk : k.val < 64 := k.isLt
  refine ⟨?_, ?_, ?_, ?_⟩
  · refine concatenate_apply_piece 1 (pieces y0 y1 y2 y3) h _ 0 (by show (0 : ℕ) < 4; omega) ⟨2, ![200000, 64]⟩ y0 rfl rfl 0 rfl (ix2 p k) (fun b hb => ?_) ?_
    · match b with
      | ⟨0, _⟩ => rfl
      | ⟨1, _⟩ => exact absurd rfl hb
    · show 0 + k.val = (0 : Fin 4).val * 64 + k.val; omega
  · refine concatenate_apply_piece 1 (pieces y0 y1 y2 y3) h _ 1 (by show (1 : ℕ) < 4; omega) ⟨2, ![200000, 64]⟩ y1 rfl rfl 64 rfl (ix2 p k) (fun b hb => ?_) ?_
    · match b with
      | ⟨0, _⟩ => rfl
      | ⟨1, _⟩ => exact absurd rfl hb
    · show 64 + k.val = (1 : Fin 4).val * 64 + k.val; omega
  · refine concatenate_apply_piece 1 (pieces y0 y1 y2 y3) h _ 2 (by show (2 : ℕ) < 4; omega) ⟨2, ![200000, 64]⟩ y2 rfl rfl 128 rfl (ix2 p k) (fun b hb => ?_) ?_
    · match b with
      | ⟨0, _⟩ => rfl
      | ⟨1, _⟩ => exact absurd rfl hb
    · show 128 + k.val = (2 : Fin 4).val * 64 + k.val; omega
  · refine concatenate_apply_piece 1 (pieces y0 y1 y2 y3) h _ 3 (by show (3 : ℕ) < 4; omega) ⟨2, ![200000, 64]⟩ y3 rfl rfl 192 rfl (ix2 p k) (fun b hb => ?_) ?_
    · match b with
      | ⟨0, _⟩ => rfl
      | ⟨1, _⟩ => exact absurd rfl hb
    · show 192 + k.val = (3 : Fin 4).val * 64 + k.val; omega

/-! ## The concatenated row, piece by piece -/

/-- Columns `0 … 63` of pair `p`'s concatenated row: the first embedding. -/
theorem row_first (x0 : (⟨S100000x128, .f32⟩ : BufTy).Contents (Elt Ideal)) (x1 : (⟨S2x1600000, .i32⟩ : BufTy).Contents (Elt Ideal)) (x2 : (⟨S2x200000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 200000) (k : Fin 64) :
    val_main_v109 (F := Ideal) x0 x1 x2 x3 x4 x5 x6 (ix2 p (Cert.Spec.rowOf 0 k)) = val_main_v96 (F := Ideal) x0 x1 x2 x3 x4 x5 x6 (ix2 p k) := by
  unfold val_main_v109
  exact (concat_apply _ _ _ _ _ p k).1

/-- Columns `64 … 127`: the second embedding. -/
theorem row_second (x0 : (⟨S100000x128, .f32⟩ : BufTy).Contents (Elt Ideal)) (x1 : (⟨S2x1600000, .i32⟩ : BufTy).Contents (Elt Ideal)) (x2 : (⟨S2x200000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 200000) (k : Fin 64) :
    val_main_v109 (F := Ideal) x0 x1 x2 x3 x4 x5 x6 (ix2 p (Cert.Spec.rowOf 1 k)) = val_main_v105 (F := Ideal) x0 x1 x2 x3 x4 x5 x6 (ix2 p k) := by
  unfold val_main_v109
  exact (concat_apply _ _ _ _ _ p k).2.1

/-- Columns `128 … 191`: the entrywise product of the two embeddings. -/
theorem row_product (x0 : (⟨S100000x128, .f32⟩ : BufTy).Contents (Elt Ideal)) (x1 : (⟨S2x1600000, .i32⟩ : BufTy).Contents (Elt Ideal)) (x2 : (⟨S2x200000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 200000) (k : Fin 64) :
    val_main_v109 (F := Ideal) x0 x1 x2 x3 x4 x5 x6 (ix2 p (Cert.Spec.rowOf 2 k))
      = val_main_v96 (F := Ideal) x0 x1 x2 x3 x4 x5 x6 (ix2 p k) * val_main_v105 (F := Ideal) x0 x1 x2 x3 x4 x5 x6 (ix2 p k) := by
  unfold val_main_v109
  refine ((concat_apply _ _ _ _ _ p k).2.2.1).trans ?_
  rw [val_main_v106_apply]
  generalize val_main_v96 (F := Ideal) x0 x1 x2 x3 x4 x5 x6 = zs
  generalize val_main_v105 (F := Ideal) x0 x1 x2 x3 x4 x5 x6 = zd
  rfl

/-- Columns `192 … 255`: the entrywise absolute difference of the two embeddings. -/
theorem row_absdiff (x0 : (⟨S100000x128, .f32⟩ : BufTy).Contents (Elt Ideal)) (x1 : (⟨S2x1600000, .i32⟩ : BufTy).Contents (Elt Ideal)) (x2 : (⟨S2x200000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 200000) (k : Fin 64) :
    val_main_v109 (F := Ideal) x0 x1 x2 x3 x4 x5 x6 (ix2 p (Cert.Spec.rowOf 3 k))
      = (FloatOps.absf (F := Ideal) (φ := .f32) (val_main_v96 (F := Ideal) x0 x1 x2 x3 x4 x5 x6 (ix2 p k) - val_main_v105 (F := Ideal) x0 x1 x2 x3 x4 x5 x6 (ix2 p k)) : Elt Ideal .f32) := by
  unfold val_main_v109
  refine ((concat_apply _ _ _ _ _ p k).2.2.2).trans ?_
  rw [val_main_v108_apply, val_main_v107_apply]
  generalize val_main_v96 (F := Ideal) x0 x1 x2 x3 x4 x5 x6 = zs
  generalize val_main_v105 (F := Ideal) x0 x1 x2 x3 x4 x5 x6 = zd
  rfl

/-! ## The hidden layer -/

/-- Hidden unit `j` of pair `p`: the row's product with column `j` of `W₁` split over the four pieces, the bias added, the
    maximum with zero taken. -/
theorem hidden_eq (x0 : (⟨S100000x128, .f32⟩ : BufTy).Contents (Elt Ideal)) (x1 : (⟨S2x1600000, .i32⟩ : BufTy).Contents (Elt Ideal)) (x2 : (⟨S2x200000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S256x256, .f32⟩ : BufTy).Contents (Elt Ideal)) (x8 : (⟨S256, .f32⟩ : BufTy).Contents (Elt Ideal))
    (h8 : (⟨1, ![256]⟩ : Shape).ShapeCasts ⟨2, ![1, 256]⟩) (p : Fin 200000) (j : Fin 256) :
    val_main_v114 (F := Ideal) x0 x1 x2 x3 x4 x5 x6 x7 x8 (ix2 p j)
      = Cert.Spec.hidden (val_main_v96 (F := Ideal) x0 x1 x2 x3 x4 x5 x6) (val_main_v105 (F := Ideal) x0 x1 x2 x3 x4 x5 x6) x7 (shapeCast ⟨2, ![1, 256]⟩ x8 h8) p j := by
  rw [val_main_v114_apply, val_main_v113_apply, val_main_v110_apply, val_main_v112_apply, val_main_v111_apply,
    val_main_call3_v0_apply, val_main_call3_cst_apply]
  unfold Cert.Spec.hidden
  have hl : ∀ r : Fin 256, lidx_main_v110 (ix2 p j) r = ix2 p r := fun r => funext fun a => Fin.ext (by
    match a with
    | ⟨0, _⟩ => rfl
    | ⟨1, _⟩ => rfl)
  have hr : ∀ r : Fin 256, ridx_main_v110 (ix2 p j) r = ix2 r j := fun r => funext fun a => Fin.ext (by
    match a with
    | ⟨0, _⟩ => rfl
    | ⟨1, _⟩ => rfl)
  have hb : shapeCast ⟨2, ![1, 256]⟩ x8 h8 (ix2 0 j) = x8 (idx_main_v111 (idx_main_v112 (ix2 p j))) :=
    shapeCast_apply x8 h8 (ix2 0 j) _ (by
      rw [Shape.rowMajor_val_one, Shape.rowMajor_val_two]
      show j.val = 0 * 256 + j.val
      omega)
  have hsum : ∑ r : Fin 256, (val_main_v109 (F := Ideal) x0 x1 x2 x3 x4 x5 x6) (lidx_main_v110 (ix2 p j) r) * x7 (ridx_main_v110 (ix2 p j) r)
      = (((∑ k : Fin 64, val_main_v96 (F := Ideal) x0 x1 x2 x3 x4 x5 x6 (ix2 p k) * x7 (ix2 (Cert.Spec.rowOf 0 k) j))
          + ∑ k : Fin 64, val_main_v105 (F := Ideal) x0 x1 x2 x3 x4 x5 x6 (ix2 p k) * x7 (ix2 (Cert.Spec.rowOf 1 k) j))
          + ∑ k : Fin 64, (val_main_v96 (F := Ideal) x0 x1 x2 x3 x4 x5 x6 (ix2 p k) * val_main_v105 (F := Ideal) x0 x1 x2 x3 x4 x5 x6 (ix2 p k)) * x7 (ix2 (Cert.Spec.rowOf 2 k) j))
          + ∑ k : Fin 64, (FloatOps.absf (F := Ideal) (φ := .f32) (val_main_v96 (F := Ideal) x0 x1 x2 x3 x4 x5 x6 (ix2 p k) - val_main_v105 (F := Ideal) x0 x1 x2 x3 x4 x5 x6 (ix2 p k)) : Elt Ideal .f32) * x7 (ix2 (Cert.Spec.rowOf 3 k) j) := by
    refine (Finset.sum_congr rfl fun r _ => by rw [hl r, hr r]).trans ?_
    refine (sum_groups fun r => (val_main_v109 (F := Ideal) x0 x1 x2 x3 x4 x5 x6) (ix2 p r) * x7 (ix2 r j)).trans ?_
    simp only [row_first, row_second, row_product, row_absdiff]
  rw [hsum, hb]
  rfl

/-! ## The logits -/

/-- The reference's logits are the decoder's closed form of the two gathered embeddings, the two weight arrays and the
    two biases, each bias reshaped to a one-row array. -/
theorem tail_eq (x0 : (⟨S100000x128, .f32⟩ : BufTy).Contents (Elt Ideal)) (x1 : (⟨S2x1600000, .i32⟩ : BufTy).Contents (Elt Ideal)) (x2 : (⟨S2x200000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x7 : (⟨S256x256, .f32⟩ : BufTy).Contents (Elt Ideal)) (x8 : (⟨S256, .f32⟩ : BufTy).Contents (Elt Ideal)) (x9 : (⟨S256x1, .f32⟩ : BufTy).Contents (Elt Ideal)) (x10 : (⟨S1, .f32⟩ : BufTy).Contents (Elt Ideal))
    (h8 : (⟨1, ![256]⟩ : Shape).ShapeCasts ⟨2, ![1, 256]⟩) (h10 : (⟨1, ![1]⟩ : Shape).ShapeCasts ⟨2, ![1, 1]⟩) :
    val_main_v118 (F := Ideal) x0 x1 x2 x3 x4 x5 x6 x7 x8 x9 x10
      = Cert.Spec.decoder (val_main_v96 (F := Ideal) x0 x1 x2 x3 x4 x5 x6) (val_main_v105 (F := Ideal) x0 x1 x2 x3 x4 x5 x6) x7 (shapeCast ⟨2, ![1, 256]⟩ x8 h8) x9 (shapeCast ⟨2, ![1, 1]⟩ x10 h10) := by
  funext i
  obtain ⟨p, z, rfl⟩ : ∃ (p : Fin 200000) (z : Fin 1), i = ix2 p z := ⟨i 0, i 1, eq_ix2 i⟩
  obtain rfl : z = 0 := Fin.ext (by have := z.isLt; omega)
  rw [val_main_v118_apply, val_main_v115_apply, val_main_v117_apply, val_main_v116_apply]
  unfold Cert.Spec.decoder
  have hl : ∀ r : Fin 256, lidx_main_v115 (ix2 p 0) r = ix2 p r := fun r => funext fun a => Fin.ext (by
    match a with
    | ⟨0, _⟩ => rfl
    | ⟨1, _⟩ => rfl)
  have hr : ∀ r : Fin 256, ridx_main_v115 (ix2 p 0) r = ix2 r 0 := fun r => funext fun a => Fin.ext (by
    match a with
    | ⟨0, _⟩ => rfl
    | ⟨1, _⟩ => rfl)
  have hb : shapeCast ⟨2, ![1, 1]⟩ x10 h10 (ix2 0 0) = x10 (idx_main_v116 (idx_main_v117 (ix2 p 0))) :=
    shapeCast_apply x10 h10 (ix2 0 0) _ (by
      rw [Shape.rowMajor_val_one, Shape.rowMajor_val_two]
      rfl)
  have hsum : ∑ r : Fin 256, (val_main_v114 (F := Ideal) x0 x1 x2 x3 x4 x5 x6 x7 x8) (lidx_main_v115 (ix2 p 0) r) * x9 (ridx_main_v115 (ix2 p 0) r)
      = ∑ j : Fin 256, Cert.Spec.hidden (val_main_v96 (F := Ideal) x0 x1 x2 x3 x4 x5 x6) (val_main_v105 (F := Ideal) x0 x1 x2 x3 x4 x5 x6) x7 (shapeCast ⟨2, ![1, 256]⟩ x8 h8) p j * x9 (ix2 j 0) :=
    Finset.sum_congr rfl fun r _ => by rw [hl r, hr r, hidden_eq x0 x1 x2 x3 x4 x5 x6 x7 x8 h8 p r]
  rw [hsum, hb]
  rfl

end Cert.Bridge.RefDec

end
-- ==== Proof.Chain.lean ====
/-
  The idealized kernel program's result is the reference's last stage.

  The kernel program's buffer contents at its twelve segment boundaries (`W0` … `W12` of the generated frame: a host
  stretch's fold, a region's arrays at what its write-backs leave) are read here, boundary by boundary, at the few
  buffers the next segment reads, as the reference's stages of the launch contents of the arguments: the edge lists
  after the first stretch; the first product after region 0 (a row-tiled matmul is the one product); the first layer's
  output after the second stretch; the second product after region 1; the pairs' embeddings and the two reshaped
  biases after the third stretch; the decoder's column after region 2; its reshape at the end. The reference's tail —
  concatenate, product, bias, relu, product, bias — is the same decoder function of the same embeddings, so the two
  results are one array.
-/
import proofs.«124321_j44160853737915_1_alg».proof.Proof.Gen.KernelIdeal.Frame
import proofs.«124321_j44160853737915_1_alg».proof.Proof.RefRead
import proofs.«124321_j44160853737915_1_alg».proof.Proof.Reg0
import proofs.«124321_j44160853737915_1_alg».proof.Proof.Reg1
import proofs.«124321_j44160853737915_1_alg».proof.Proof.Reg2
import proofs.«124321_j44160853737915_1_alg».proof.Proof.HostA
import proofs.«124321_j44160853737915_1_alg».proof.Proof.RefDec
import proofs.«124321_j44160853737915_1_alg».proof.Proof.Spec

set_option maxRecDepth 16384

noncomputable section

namespace Cert.Bridge.Chain

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- Argument 0's launch contents. -/
abbrev a0 : (⟨Cert.ReferenceIdeal.S100000x128, .f32⟩ : BufTy).Contents (Elt Ideal) := m ((c : Thread nD τ).loc main_arg0)
/-- Argument 1's launch contents. -/
abbrev a1 : (⟨Cert.ReferenceIdeal.S2x1600000, .i32⟩ : BufTy).Contents (Elt Ideal) := m ((c : Thread nD τ).loc main_arg1)
/-- Argument 2's launch contents. -/
abbrev a2 : (⟨Cert.ReferenceIdeal.S2x200000, .i32⟩ : BufTy).Contents (Elt Ideal) := m ((c : Thread nD τ).loc main_arg2)
/-- Argument 3's launch contents. -/
abbrev a3 : (⟨Cert.ReferenceIdeal.S128x128, .f32⟩ : BufTy).Contents (Elt Ideal) := m ((c : Thread nD τ).loc main_arg3)
/-- Argument 4's launch contents. -/
abbrev a4 : (⟨Cert.ReferenceIdeal.S128, .f32⟩ : BufTy).Contents (Elt Ideal) := m ((c : Thread nD τ).loc main_arg4)
/-- Argument 5's launch contents. -/
abbrev a5 : (⟨Cert.ReferenceIdeal.S128x64, .f32⟩ : BufTy).Contents (Elt Ideal) := m ((c : Thread nD τ).loc main_arg5)
/-- Argument 6's launch contents. -/
abbrev a6 : (⟨Cert.ReferenceIdeal.S64, .f32⟩ : BufTy).Contents (Elt Ideal) := m ((c : Thread nD τ).loc main_arg6)
/-- Argument 7's launch contents. -/
abbrev a7 : (⟨Cert.ReferenceIdeal.S256x256, .f32⟩ : BufTy).Contents (Elt Ideal) := m ((c : Thread nD τ).loc main_arg7)
/-- Argument 8's launch contents. -/
abbrev a8 : (⟨Cert.ReferenceIdeal.S256, .f32⟩ : BufTy).Contents (Elt Ideal) := m ((c : Thread nD τ).loc main_arg8)
/-- Argument 9's launch contents. -/
abbrev a9 : (⟨Cert.ReferenceIdeal.S256x1, .f32⟩ : BufTy).Contents (Elt Ideal) := m ((c : Thread nD τ).loc main_arg9)
/-- Argument 10's launch contents. -/
abbrev a10 : (⟨Cert.ReferenceIdeal.S1, .f32⟩ : BufTy).Contents (Elt Ideal) := m ((c : Thread nD τ).loc main_arg10)

/-! ## After the first stretch: the edge lists, the arguments untouched -/

theorem w1_v3 : W1 m ρ c (Proc.devRef .tc main_v3) = val_main_v3 (F := Ideal) (a1 m c) :=
  Cert.Bridge.Host.stretch0_src (W0 m ρ c) (a1 m c) rfl
theorem w1_v6 : W1 m ρ c (Proc.devRef .tc main_v6) = val_main_v6 (F := Ideal) (a1 m c) :=
  Cert.Bridge.Host.stretch0_dst (W0 m ρ c) (a1 m c) rfl
theorem w1_arg0 : W1 m ρ c (Proc.devRef .tc main_arg0) = a0 m c := Cert.Bridge.Host.stretch0_keep_arg0 (W0 m ρ c)
theorem w1_arg2 : W1 m ρ c (Proc.devRef .tc main_arg2) = a2 m c := Cert.Bridge.Host.stretch0_keep_arg2 (W0 m ρ c)
theorem w1_arg3 : W1 m ρ c (Proc.devRef .tc main_arg3) = a3 m c := Cert.Bridge.Host.stretch0_keep_arg3 (W0 m ρ c)
theorem w1_arg4 : W1 m ρ c (Proc.devRef .tc main_arg4) = a4 m c := Cert.Bridge.Host.stretch0_keep_arg4 (W0 m ρ c)
theorem w1_arg5 : W1 m ρ c (Proc.devRef .tc main_arg5) = a5 m c := Cert.Bridge.Host.stretch0_keep_arg5 (W0 m ρ c)
theorem w1_arg6 : W1 m ρ c (Proc.devRef .tc main_arg6) = a6 m c := Cert.Bridge.Host.stretch0_keep_arg6 (W0 m ρ c)
theorem w1_arg7 : W1 m ρ c (Proc.devRef .tc main_arg7) = a7 m c := Cert.Bridge.Host.stretch0_keep_arg7 (W0 m ρ c)
theorem w1_arg8 : W1 m ρ c (Proc.devRef .tc main_arg8) = a8 m c := Cert.Bridge.Host.stretch0_keep_arg8 (W0 m ρ c)
theorem w1_arg9 : W1 m ρ c (Proc.devRef .tc main_arg9) = a9 m c := Cert.Bridge.Host.stretch0_keep_arg9 (W0 m ρ c)
theorem w1_arg10 : W1 m ρ c (Proc.devRef .tc main_arg10) = a10 m c := Cert.Bridge.Host.stretch0_keep_arg10 (W0 m ρ c)

/-! ## After region 0: the first product -/

theorem w2_v7 : W2 m ρ c (Proc.devRef .tc main_v7) = val_main_v7 (F := Ideal) (a0 m c) (a3 m c) := by
  refine (W2_arr m ρ c 2).trans ((Cert.Bridge.Reg0.final (V1 m ρ) c).trans ?_)
  show Host.dotGeneral (F := Ideal) (φ₁ := .f32) (φ₂ := .f32) Cert.ReferenceIdeal.dot_S100000x128_S128x128_S100000x128_1_0_0_1_n_n none
      (W1 m ρ c (Proc.devRef .tc main_arg0)) (W1 m ρ c (Proc.devRef .tc main_arg3)) = _
  rw [w1_arg0, w1_arg3]
  rfl
theorem w2_v3 : W2 m ρ c (Proc.devRef .tc main_v3) = W1 m ρ c (Proc.devRef .tc main_v3) := W2_of_ne m ρ c main_v3 (by decide)
theorem w2_v6 : W2 m ρ c (Proc.devRef .tc main_v6) = W1 m ρ c (Proc.devRef .tc main_v6) := W2_of_ne m ρ c main_v6 (by decide)
theorem w2_arg2 : W2 m ρ c (Proc.devRef .tc main_arg2) = W1 m ρ c (Proc.devRef .tc main_arg2) := W2_of_ne m ρ c main_arg2 (by decide)
theorem w2_arg4 : W2 m ρ c (Proc.devRef .tc main_arg4) = W1 m ρ c (Proc.devRef .tc main_arg4) := W2_of_ne m ρ c main_arg4 (by decide)
theorem w2_arg5 : W2 m ρ c (Proc.devRef .tc main_arg5) = W1 m ρ c (Proc.devRef .tc main_arg5) := W2_of_ne m ρ c main_arg5 (by decide)
theorem w2_arg6 : W2 m ρ c (Proc.devRef .tc main_arg6) = W1 m ρ c (Proc.devRef .tc main_arg6) := W2_of_ne m ρ c main_arg6 (by decide)
theorem w2_arg7 : W2 m ρ c (Proc.devRef .tc main_arg7) = W1 m ρ c (Proc.devRef .tc main_arg7) := W2_of_ne m ρ c main_arg7 (by decide)
theorem w2_arg8 : W2 m ρ c (Proc.devRef .tc main_arg8) = W1 m ρ c (Proc.devRef .tc main_arg8) := W2_of_ne m ρ c main_arg8 (by decide)
theorem w2_arg9 : W2 m ρ c (Proc.devRef .tc main_arg9) = W1 m ρ c (Proc.devRef .tc main_arg9) := W2_of_ne m ρ c main_arg9 (by decide)
theorem w2_arg10 : W2 m ρ c (Proc.devRef .tc main_arg10) = W1 m ρ c (Proc.devRef .tc main_arg10) := W2_of_ne m ρ c main_arg10 (by decide)

/-! ## After the second stretch: the first layer's output -/

theorem w6_v47 : W6 m ρ c (Proc.devRef .tc main_v47) = val_main_v47 (F := Ideal) (a0 m c) (a1 m c) (a3 m c) (a4 m c) :=
  Cert.Bridge.Host.stretch1_h (W2 m ρ c) (a0 m c) (a1 m c) (a3 m c) (a4 m c) (w2_v7 m ρ c)
    ((w2_v3 m ρ c).trans (w1_v3 m ρ c)) ((w2_v6 m ρ c).trans (w1_v6 m ρ c)) ((w2_arg4 m ρ c).trans (w1_arg4 m ρ c))
theorem w6_v3 : W6 m ρ c (Proc.devRef .tc main_v3) = W2 m ρ c (Proc.devRef .tc main_v3) := Cert.Bridge.Host.stretch1_keep_v3 (W2 m ρ c)
theorem w6_v6 : W6 m ρ c (Proc.devRef .tc main_v6) = W2 m ρ c (Proc.devRef .tc main_v6) := Cert.Bridge.Host.stretch1_keep_v6 (W2 m ρ c)
theorem w6_arg2 : W6 m ρ c (Proc.devRef .tc main_arg2) = W2 m ρ c (Proc.devRef .tc main_arg2) := Cert.Bridge.Host.stretch1_keep_arg2 (W2 m ρ c)
theorem w6_arg5 : W6 m ρ c (Proc.devRef .tc main_arg5) = W2 m ρ c (Proc.devRef .tc main_arg5) := Cert.Bridge.Host.stretch1_keep_arg5 (W2 m ρ c)
theorem w6_arg6 : W6 m ρ c (Proc.devRef .tc main_arg6) = W2 m ρ c (Proc.devRef .tc main_arg6) := Cert.Bridge.Host.stretch1_keep_arg6 (W2 m ρ c)
theorem w6_arg7 : W6 m ρ c (Proc.devRef .tc main_arg7) = W2 m ρ c (Proc.devRef .tc main_arg7) := Cert.Bridge.Host.stretch1_keep_arg7 (W2 m ρ c)
theorem w6_arg8 : W6 m ρ c (Proc.devRef .tc main_arg8) = W2 m ρ c (Proc.devRef .tc main_arg8) := Cert.Bridge.Host.stretch1_keep_arg8 (W2 m ρ c)
theorem w6_arg9 : W6 m ρ c (Proc.devRef .tc main_arg9) = W2 m ρ c (Proc.devRef .tc main_arg9) := Cert.Bridge.Host.stretch1_keep_arg9 (W2 m ρ c)
theorem w6_arg10 : W6 m ρ c (Proc.devRef .tc main_arg10) = W2 m ρ c (Proc.devRef .tc main_arg10) := Cert.Bridge.Host.stretch1_keep_arg10 (W2 m ρ c)

/-! ## After region 1: the second product -/

theorem w7_v48 : W7 m ρ c (Proc.devRef .tc main_v48) = val_main_v48 (F := Ideal) (a0 m c) (a1 m c) (a3 m c) (a4 m c) (a5 m c) := by
  refine (W7_arr m ρ c 2).trans ((Cert.Bridge.Reg1.final (V6 m ρ) c).trans ?_)
  show Host.dotGeneral (F := Ideal) (φ₁ := .f32) (φ₂ := .f32) Cert.ReferenceIdeal.dot_S100000x128_S128x64_S100000x64_1_0_0_1_n_n none
      (W6 m ρ c (Proc.devRef .tc main_v47)) (W6 m ρ c (Proc.devRef .tc main_arg5)) = _
  rw [w6_v47, w6_arg5, w2_arg5, w1_arg5]
  rfl
theorem w7_v3 : W7 m ρ c (Proc.devRef .tc main_v3) = W6 m ρ c (Proc.devRef .tc main_v3) := W7_of_ne m ρ c main_v3 (by decide)
theorem w7_v6 : W7 m ρ c (Proc.devRef .tc main_v6) = W6 m ρ c (Proc.devRef .tc main_v6) := W7_of_ne m ρ c main_v6 (by decide)
theorem w7_arg2 : W7 m ρ c (Proc.devRef .tc main_arg2) = W6 m ρ c (Proc.devRef .tc main_arg2) := W7_of_ne m ρ c main_arg2 (by decide)
theorem w7_arg6 : W7 m ρ c (Proc.devRef .tc main_arg6) = W6 m ρ c (Proc.devRef .tc main_arg6) := W7_of_ne m ρ c main_arg6 (by decide)
theorem w7_arg7 : W7 m ρ c (Proc.devRef .tc main_arg7) = W6 m ρ c (Proc.devRef .tc main_arg7) := W7_of_ne m ρ c main_arg7 (by decide)
theorem w7_arg8 : W7 m ρ c (Proc.devRef .tc main_arg8) = W6 m ρ c (Proc.devRef .tc main_arg8) := W7_of_ne m ρ c main_arg8 (by decide)
theorem w7_arg9 : W7 m ρ c (Proc.devRef .tc main_arg9) = W6 m ρ c (Proc.devRef .tc main_arg9) := W7_of_ne m ρ c main_arg9 (by decide)
theorem w7_arg10 : W7 m ρ c (Proc.devRef .tc main_arg10) = W6 m ρ c (Proc.devRef .tc main_arg10) := W7_of_ne m ρ c main_arg10 (by decide)

/-- A buffer no segment up to region 1's exit writes still holds what the first stretch left. -/
theorem w7_v3' : W7 m ρ c (Proc.devRef .tc main_v3) = W1 m ρ c (Proc.devRef .tc main_v3) := (w7_v3 m ρ c).trans ((w6_v3 m ρ c).trans (w2_v3 m ρ c))
theorem w7_v6' : W7 m ρ c (Proc.devRef .tc main_v6) = W1 m ρ c (Proc.devRef .tc main_v6) := (w7_v6 m ρ c).trans ((w6_v6 m ρ c).trans (w2_v6 m ρ c))
theorem w7_arg2' : W7 m ρ c (Proc.devRef .tc main_arg2) = W1 m ρ c (Proc.devRef .tc main_arg2) := (w7_arg2 m ρ c).trans ((w6_arg2 m ρ c).trans (w2_arg2 m ρ c))
theorem w7_arg6' : W7 m ρ c (Proc.devRef .tc main_arg6) = W1 m ρ c (Proc.devRef .tc main_arg6) := (w7_arg6 m ρ c).trans ((w6_arg6 m ρ c).trans (w2_arg6 m ρ c))
theorem w7_arg7' : W7 m ρ c (Proc.devRef .tc main_arg7) = W1 m ρ c (Proc.devRef .tc main_arg7) := (w7_arg7 m ρ c).trans ((w6_arg7 m ρ c).trans (w2_arg7 m ρ c))
theorem w7_arg8' : W7 m ρ c (Proc.devRef .tc main_arg8) = W1 m ρ c (Proc.devRef .tc main_arg8) := (w7_arg8 m ρ c).trans ((w6_arg8 m ρ c).trans (w2_arg8 m ρ c))
theorem w7_arg9' : W7 m ρ c (Proc.devRef .tc main_arg9) = W1 m ρ c (Proc.devRef .tc main_arg9) := (w7_arg9 m ρ c).trans ((w6_arg9 m ρ c).trans (w2_arg9 m ρ c))
theorem w7_arg10' : W7 m ρ c (Proc.devRef .tc main_arg10) = W1 m ρ c (Proc.devRef .tc main_arg10) := (w7_arg10 m ρ c).trans ((w6_arg10 m ρ c).trans (w2_arg10 m ρ c))

/-! ## After the third stretch: the pairs' embeddings, the reshaped biases -/

theorem w10_v96 : W10 m ρ c (Proc.devRef .tc main_v96)
    = val_main_v96 (F := Ideal) (a0 m c) (a1 m c) (a2 m c) (a3 m c) (a4 m c) (a5 m c) (a6 m c) :=
  Cert.Bridge.Host.stretch2_zs (W7 m ρ c) (a0 m c) (a1 m c) (a2 m c) (a3 m c) (a4 m c) (a5 m c) (a6 m c) (w7_v48 m ρ c)
    ((w7_v3' m ρ c).trans (w1_v3 m ρ c)) ((w7_v6' m ρ c).trans (w1_v6 m ρ c))
    ((w7_arg6' m ρ c).trans (w1_arg6 m ρ c)) ((w7_arg2' m ρ c).trans (w1_arg2 m ρ c))
theorem w10_v105 : W10 m ρ c (Proc.devRef .tc main_v105)
    = val_main_v105 (F := Ideal) (a0 m c) (a1 m c) (a2 m c) (a3 m c) (a4 m c) (a5 m c) (a6 m c) :=
  Cert.Bridge.Host.stretch2_zd (W7 m ρ c) (a0 m c) (a1 m c) (a2 m c) (a3 m c) (a4 m c) (a5 m c) (a6 m c) (w7_v48 m ρ c)
    ((w7_v3' m ρ c).trans (w1_v3 m ρ c)) ((w7_v6' m ρ c).trans (w1_v6 m ρ c))
    ((w7_arg6' m ρ c).trans (w1_arg6 m ρ c)) ((w7_arg2' m ρ c).trans (w1_arg2 m ρ c))
theorem w10_v106 : W10 m ρ c (Proc.devRef .tc main_v106) = shapeCast S1x256 (a8 m c) shapeCasts_S256_S1x256 :=
  Cert.Bridge.Host.stretch2_b1 (W7 m ρ c) (a8 m c) ((w7_arg8' m ρ c).trans (w1_arg8 m ρ c))
theorem w10_v107 : W10 m ρ c (Proc.devRef .tc main_v107) = shapeCast S1x1 (a10 m c) shapeCasts_S1_S1x1 :=
  Cert.Bridge.Host.stretch2_b2 (W7 m ρ c) (a10 m c) ((w7_arg10' m ρ c).trans (w1_arg10 m ρ c))
theorem w10_arg7 : W10 m ρ c (Proc.devRef .tc main_arg7) = a7 m c :=
  (Cert.Bridge.Host.stretch2_keep_arg7 (W7 m ρ c)).trans ((w7_arg7' m ρ c).trans (w1_arg7 m ρ c))
theorem w10_arg9 : W10 m ρ c (Proc.devRef .tc main_arg9) = a9 m c :=
  (Cert.Bridge.Host.stretch2_keep_arg9 (W7 m ρ c)).trans ((w7_arg9' m ρ c).trans (w1_arg9 m ρ c))

/-! ## After region 2: the decoder's column -/

theorem w11_v108 : W11 m ρ c (Proc.devRef .tc main_v108)
    = Cert.Spec.decoder (val_main_v96 (F := Ideal) (a0 m c) (a1 m c) (a2 m c) (a3 m c) (a4 m c) (a5 m c) (a6 m c))
        (val_main_v105 (F := Ideal) (a0 m c) (a1 m c) (a2 m c) (a3 m c) (a4 m c) (a5 m c) (a6 m c)) (a7 m c)
        (shapeCast S1x256 (a8 m c) shapeCasts_S256_S1x256) (a9 m c) (shapeCast S1x1 (a10 m c) shapeCasts_S1_S1x1) := by
  refine (W11_arr m ρ c 6).trans ((Cert.Bridge.Reg2.final (V10 m ρ) c).trans ?_)
  show Cert.Spec.decoder (W10 m ρ c (Proc.devRef .tc main_v96)) (W10 m ρ c (Proc.devRef .tc main_v105))
      (W10 m ρ c (Proc.devRef .tc main_arg7)) (W10 m ρ c (Proc.devRef .tc main_v106))
      (W10 m ρ c (Proc.devRef .tc main_arg9)) (W10 m ρ c (Proc.devRef .tc main_v107)) = _
  rw [w10_v96, w10_v105, w10_arg7, w10_v106, w10_arg9, w10_v107]

/-! ## The result -/

/-- The kernel program's result buffer ends at the reference's last stage of the launch contents of the arguments. -/
theorem result_eq : W12 m ρ c (Proc.devRef .tc main_v109)
    = val_main_v119 (F := Ideal) (a0 m c) (a1 m c) (a2 m c) (a3 m c) (a4 m c) (a5 m c) (a6 m c) (a7 m c) (a8 m c) (a9 m c) (a10 m c) := by
  refine (Cert.Bridge.Host.stretch3 (W11 m ρ c)).trans ?_
  rw [w11_v108]
  unfold val_main_v119
  rw [Cert.Bridge.RefDec.tail_eq (a0 m c) (a1 m c) (a2 m c) (a3 m c) (a4 m c) (a5 m c) (a6 m c) (a7 m c) (a8 m c) (a9 m c) (a10 m c)
    shapeCasts_S256_S1x256 shapeCasts_S1_S1x1]

end Cert.Bridge.Chain

end
-- ==== Proof.lean ====
/-
  The certificate: a two-layer graph-convolution encoder and a pair decoder, three kernels among host operations,
  against one host program.

  The kernel program computes x·W₁ in a row-tiled matmul kernel, aggregates it over the edges on the host (degrees by
  a scatter-add of ones, d^(-1/2) where the degree is positive, the per-edge coefficient, a gather of source rows, a
  scatter-add into destination rows, the bias, the relu), computes h·W₂ in a second row-tiled kernel, aggregates
  again, gathers the two embeddings of every pair, and decodes each pair in a third kernel: four 64-row blocks of Wm₁
  against zs, zd, zs·zd and |zs − zd|, summed, plus the bias, relu, the product with Wm₂ and its bias. The reference
  is the same host operations with one whole product in place of each tiled kernel and, for the decoder, the
  concatenation of the four feature groups against the whole of Wm₁. On the extended reals the casts to a narrower
  float format are the identity, a row-tiled product is the whole product, and a sum over 256 columns is the sum of
  its four runs of 64 (addition there is associative and commutative; no finiteness is used), so the two programs end
  with the same array: `algebraic`. The ideal pass rewrote nothing, so `preserves` is `True`. The two kernel programs'
  frames are the generated frame certificates; the reference's frame is its run with the result dropped.
-/
import proofs.«124321_j44160853737915_1_alg».proof.Defs
import proofs.«124321_j44160853737915_1_alg».proof.Proof.Gen.Kernel
import proofs.«124321_j44160853737915_1_alg».proof.Proof.Gen.Kernel.Skeleton
import proofs.«124321_j44160853737915_1_alg».proof.Proof.Gen.Kernel.Launch
import proofs.«124321_j44160853737915_1_alg».proof.Proof.Gen.Kernel.Points
import proofs.«124321_j44160853737915_1_alg».proof.Proof.Gen.Kernel.Frame
import proofs.«124321_j44160853737915_1_alg».proof.Proof.Gen.KernelIdeal
import proofs.«124321_j44160853737915_1_alg».proof.Proof.Gen.KernelIdeal.Skeleton
import proofs.«124321_j44160853737915_1_alg».proof.Proof.Gen.KernelIdeal.Launch
import proofs.«124321_j44160853737915_1_alg».proof.Proof.Gen.KernelIdeal.Points
import proofs.«124321_j44160853737915_1_alg».proof.Proof.Gen.KernelIdeal.Frame
import proofs.«124321_j44160853737915_1_alg».proof.Proof.Gen.ReferenceIdeal
import proofs.«124321_j44160853737915_1_alg».proof.Proof.Gen.Pre_finite_inputs
import proofs.«124321_j44160853737915_1_alg».proof.Proof.RefRun
import proofs.«124321_j44160853737915_1_alg».proof.Proof.RefRead
import proofs.«124321_j44160853737915_1_alg».proof.Proof.KRun
import proofs.«124321_j44160853737915_1_alg».proof.Proof.Chain
import Idealize.ShloMosaic.Adequacy
import Idealize.ShloMosaic.Init

noncomputable section

namespace Cert.Proof

open Idealize.ShloMosaic Idealize.SL.Sem

/-- The word-level kernel program runs and leaves its arguments as launched: the generated frame certificate. -/
theorem frame_kernel : Cert.frame_Kernel := fun m ρ _ => Cert.Kernel.Gen.frame m ρ

/-- The idealized kernel program runs and leaves its arguments as launched: the generated frame certificate. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run m ρ)

/-- The ideal pass rewrote no operation. -/
theorem preserves : Cert.preserves_Kernel_KernelIdeal := trivial

/-- From memories agreeing on the arguments both programs end with the reference's last stage of the arguments: the
    kernel program by the chain through its segment boundaries, the reference by its run read one operation at a
    time. -/
theorem algebraic : Cert.algebraic_KernelIdeal_ReferenceIdeal := by
  intro m ρ m' ρ' _ hagree
  refine ⟨fun c => Cert.ReferenceIdeal.ReadP.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Bridge.Chain.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run m' ρ')
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
